-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x600000 : Shape := ⟨2, ![2, 600000]⟩
abbrev S600000 : Shape := ⟨1, ![600000]⟩
abbrev S128x512 : Shape := ⟨2, ![128, 512]⟩
abbrev S128 : Shape := ⟨1, ![128]⟩
abbrev S128x128 : Shape := ⟨2, ![128, 128]⟩
abbrev S32x128 : Shape := ⟨2, ![32, 128]⟩
abbrev S32 : Shape := ⟨1, ![32]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg15 : FVec F S32x128 .f32) (main_arg16 : FVec F S32 .f32) (main_v63 : IVec S_ 1) (main_v67 : IVec S_ 1) : IVec S_ 1 :=
  let main_v68 : IVec S_ 1 := andi main_v63 main_v67
  let main_v69 : FVec F S32x128 .f32 := Host.absf main_arg15
  let main_cst_26 : FVec F S_ .f32 := constant S_ .f32 0x7F800000#32
  let main_v70 : FVec F S32x128 .f32 := broadcastInDim S32x128 ![] bcast_S_S32x128 main_cst_26
  let main_v71 : IVec S32x128 1 := cmpf .olt main_v69 main_v70
  let main_c_27 : IVec S_ 1 := constantI S_ 1 1#1
  let main_v72 : IVec S_ 1 := (fun x v => Host.reduce IntOp.andi x v reducesTo_S32x128_S_d0_1 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  main_v78

def fn_part3 {F : FTy → Type} [FloatOps F] (main_arg12 : FVec F S128x128 .f32) (main_arg13 : FVec F S32x128 .f32) (main_arg14 : FVec F S32 .f32) (main_arg15 : FVec F S32x128 .f32) (main_arg16 : FVec F S32 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S32x128 .f32 := Host.absf main_arg13
  let main_cst_22 : FVec F S_ .f32 := constant S_ .f32 0x7F800000#32
  let main_v60 : FVec F S32x128 .f32 := broadcastInDim S32x128 ![] bcast_S_S32x128 main_cst_22
  let main_v61 : IVec S32x128 1 := cmpf .olt main_v59 main_v60
  let main_c_23 : IVec S_ 1 := constantI S_ 1 1#1
  let main_v62 : IVec S_ 1 := (fun x v => Host.reduce IntOp.andi x v reducesTo_S32x128_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128x128 .f32) (main_arg11 : FVec F S128 .f32) (main_arg12 : FVec F S128x128 .f32) (main_arg13 : FVec F S32x128 .f32) (main_arg14 : FVec F S32 .f32) (main_arg15 : FVec F S32x128 .f32) (main_arg16 : FVec F S32 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S32x128 .f32) (main_arg14 : FVec F S32 .f32) (main_arg15 : FVec F S32x128 .f32) (main_arg16 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x512 .f32) (main_arg1 : IVec S2x600000 32) (main_arg2 : FVec F S600000 .f32) (main_arg3 : FVec F S128x512 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S32x128 .f32) (main_arg14 : FVec F S32 .f32) (main_arg15 : FVec F S32x128 .f32) (main_arg16 : FVec F S32 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x512 .f32 := Host.absf main_arg3
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x512 : Shape := ⟨2, ![50000, 512]⟩
abbrev S2x600000 : Shape := ⟨2, ![2, 600000]⟩
abbrev S600000 : Shape := ⟨1, ![600000]⟩
abbrev S128x512 : Shape := ⟨2, ![128, 512]⟩
abbrev S128 : Shape := ⟨1, ![128]⟩
abbrev S128x128 : Shape := ⟨2, ![128, 128]⟩
abbrev S32x128 : Shape := ⟨2, ![32, 128]⟩
abbrev S32 : Shape := ⟨1, ![32]⟩
abbrev S1x600000 : Shape := ⟨2, ![1, 600000]⟩
abbrev S512x128 : Shape := ⟨2, ![512, 128]⟩
abbrev S128x32 : Shape := ⟨2, ![128, 32]⟩
abbrev S1x128 : Shape := ⟨2, ![1, 128]⟩
abbrev S1x32 : Shape := ⟨2, ![1, 32]⟩
abbrev S50000x128 : Shape := ⟨2, ![50000, 128]⟩
abbrev S2000x512 : Shape := ⟨2, ![2000, 512]⟩
abbrev S2000x128 : Shape := ⟨2, ![2000, 128]⟩
abbrev S_ : Shape := ⟨0, ![]⟩
abbrev S600000x1 : Shape := ⟨2, ![600000, 1]⟩
abbrev S600000x128 : Shape := ⟨2, ![600000, 128]⟩
abbrev S5000x128 : Shape := ⟨2, ![5000, 128]⟩
abbrev S50000x32 : Shape := ⟨2, ![50000, 32]⟩
abbrev S5000x32 : Shape := ⟨2, ![5000, 32]⟩

abbrev nBuf : Space → Nat
  | .hbm => 71
  | .vmem => 32
  | .smem => 0
  | _ => 0

abbrev bufTy : (tb : Table) → Fin (tcTables nBuf tb) → BufTy
  | .hbm, ⟨0, _⟩ => ⟨S50000x512, .f32⟩
  | .hbm, ⟨1, _⟩ => ⟨S2x600000, .i32⟩
  | .hbm, ⟨2, _⟩ => ⟨S600000, .f32⟩
  | .hbm, ⟨3, _⟩ => ⟨S128x512, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S32x128, .f32⟩
  | .hbm, ⟨14, _⟩ => ⟨S32, .f32⟩
  | .hbm, ⟨15, _⟩ => ⟨S32x128, .f32⟩
  | .hbm, ⟨16, _⟩ => ⟨S32, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S512x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x32, .f32⟩
  | .hbm, ⟨28, _⟩ => ⟨S128x32, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x32, .f32⟩
  | .hbm, ⟨34, _⟩ => ⟨S1x32, .f32⟩
  | .hbm, ⟨35, _⟩ => ⟨S50000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S600000x1, .f32⟩
  | .hbm, ⟨46, _⟩ => ⟨S600000x128, .f32⟩
  | .hbm, ⟨47, _⟩ => ⟨S600000x128, .f32⟩
  | .hbm, ⟨48, _⟩ => ⟨S_, .f32⟩
  | .hbm, ⟨49, _⟩ => ⟨S50000x128, .f32⟩
  | .hbm, ⟨50, _⟩ => ⟨S600000x1, .i32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S600000x1, .f32⟩
  | .hbm, ⟨63, _⟩ => ⟨S600000x128, .f32⟩
  | .hbm, ⟨64, _⟩ => ⟨S600000x128, .f32⟩
  | .hbm, ⟨65, _⟩ => ⟨S_, .f32⟩
  | .hbm, ⟨66, _⟩ => ⟨S50000x128, .f32⟩
  | .hbm, ⟨67, _⟩ => ⟨S600000x1, .i32⟩
  | .hbm, ⟨68, _⟩ => ⟨S50000x128, .f32⟩
  | .hbm, ⟨69, _⟩ => ⟨S50000x32, .f32⟩
  | .hbm, ⟨70, _⟩ => ⟨S50000x32, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S128x32, .f32⟩
  | .local _ .vmem, ⟨25, _⟩ => ⟨S1x32, .f32⟩
  | .local _ .vmem, ⟨26, _⟩ => ⟨S128x32, .f32⟩
  | .local _ .vmem, ⟨27, _⟩ => ⟨S1x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_1 : Ref sig .tc := ⟨.hbm, 53, rfl⟩
abbrev main_v33 : Ref sig .tc := ⟨.hbm, 54, rfl⟩
abbrev main_v34 : Ref sig .tc := ⟨.hbm, 55, rfl⟩
abbrev main_c_2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_3 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46_0 : Ref sig .tc := ⟨.hbm, 69, rfl⟩
abbrev main_v46_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc2_stg10_0 : Ref sig .tc := ⟨.vmem, 30, rfl⟩
abbrev cc2_stg10_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29
abbrev cc2_sem10_0 : DmaSem sig := 30
abbrev cc2_sem10_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S5000x32 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x512_S512x128_1_0 : S128x512.Transposes [1, 0] S512x128
  transposes_S128x128_S128x128_1_0 : S128x128.Transposes [1, 0] S128x128
  transposes_S32x128_S128x32_1_0 : S32x128.Transposes [1, 0] S128x32
  shapeCasts_S128_S1x128 : S128.ShapeCasts S1x128
  shapeCasts_S32_S1x32 : S32.ShapeCasts S1x32
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2000x128_S2000x128_0_0 : ∀ a, (![0, 0] : Fin 2 → Nat) a + S2000x128.size a ≤ S2000x128.size a
  h_S2000x128 : 0 < S2000x128.numel
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x32.size a ≤ S128x32.size a
  hwx2_5 : ∀ i : grid2.Coords, EltTy.bits .f32 = 32 ∨ (Rect.block (s := S128x32) S128x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x32.size a ≤ S128x32.size a
  hwx2_7 : ∀ i : grid2.Coords, EltTy.bits .f32 = 32 ∨ (Rect.block (s := S128x32) S128x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x32.size a ≤ S50000x32.size a
  hwx2_9 : ∀ i : grid2.Coords, EltTy.bits .f32 = 32 ∨ (Rect.block (s := S50000x32) S5000x32.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x32.size a ≤ S50000x32.size a
  hwx2_10 : ∀ i : grid2.Coords, EltTy.bits .f32 = 32 ∨ (Rect.block (s := S50000x32) S5000x32.size (cc2_transform_10 i) (hinb2_10 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S128x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v11) S128x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v17) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v46_0) S5000x32.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v46_1) S5000x32.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x600000 : Shape := ⟨2, ![2, 600000]⟩
abbrev S600000 : Shape := ⟨1, ![600000]⟩
abbrev S128x512 : Shape := ⟨2, ![128, 512]⟩
abbrev S128 : Shape := ⟨1, ![128]⟩
abbrev S128x128 : Shape := ⟨2, ![128, 128]⟩
abbrev S32x128 : Shape := ⟨2, ![32, 128]⟩
abbrev S32 : Shape := ⟨1, ![32]⟩
abbrev S1x600000 : Shape := ⟨2, ![1, 600000]⟩
abbrev S512x128 : Shape := ⟨2, ![512, 128]⟩
abbrev S50000x128 : Shape := ⟨2, ![50000, 128]⟩
abbrev S1x128 : Shape := ⟨2, ![1, 128]⟩
abbrev S_ : Shape := ⟨0, ![]⟩
abbrev S600000x1 : Shape := ⟨2, ![600000, 1]⟩
abbrev S600000x128 : Shape := ⟨2, ![600000, 128]⟩
abbrev S128x32 : Shape := ⟨2, ![128, 32]⟩
abbrev S50000x32 : Shape := ⟨2, ![50000, 32]⟩
abbrev S1x32 : Shape := ⟨2, ![1, 32]⟩

abbrev nBuf : Space → Nat
  | .hbm => 101
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x600000, .i32⟩
  | .hbm, ⟨2, _⟩ => ⟨S600000, .f32⟩
  | .hbm, ⟨3, _⟩ => ⟨S128x512, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S32x128, .f32⟩
  | .hbm, ⟨14, _⟩ => ⟨S32, .f32⟩
  | .hbm, ⟨15, _⟩ => ⟨S32x128, .f32⟩
  | .hbm, ⟨16, _⟩ => ⟨S32, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S512x128, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S128x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S600000x1, .f32⟩
  | .hbm, ⟨47, _⟩ => ⟨S600000x128, .f32⟩
  | .hbm, ⟨48, _⟩ => ⟨S600000x128, .f32⟩
  | .hbm, ⟨49, _⟩ => ⟨S_, .f32⟩
  | .hbm, ⟨50, _⟩ => ⟨S50000x128, .f32⟩
  | .hbm, ⟨51, _⟩ => ⟨S600000x1, .i32⟩
  | .hbm, ⟨52, _⟩ => ⟨S50000x128, .f32⟩
  | .hbm, ⟨53, _⟩ => ⟨S128x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S128x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x128, .f32⟩
  | .hbm, ⟨73, _⟩ => ⟨S600000x1, .f32⟩
  | .hbm, ⟨74, _⟩ => ⟨S600000x128, .f32⟩
  | .hbm, ⟨75, _⟩ => ⟨S600000x128, .f32⟩
  | .hbm, ⟨76, _⟩ => ⟨S_, .f32⟩
  | .hbm, ⟨77, _⟩ => ⟨S50000x128, .f32⟩
  | .hbm, ⟨78, _⟩ => ⟨S600000x1, .i32⟩
  | .hbm, ⟨79, _⟩ => ⟨S50000x128, .f32⟩
  | .hbm, ⟨80, _⟩ => ⟨S128x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S128x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S128x32, .f32⟩
  | .hbm, ⟨92, _⟩ => ⟨S50000x32, .f32⟩
  | .hbm, ⟨93, _⟩ => ⟨S1x32, .f32⟩
  | .hbm, ⟨94, _⟩ => ⟨S50000x32, .f32⟩
  | .hbm, ⟨95, _⟩ => ⟨S50000x32, .f32⟩
  | .hbm, ⟨96, _⟩ => ⟨S128x32, .f32⟩
  | .hbm, ⟨97, _⟩ => ⟨S50000x32, .f32⟩
  | .hbm, ⟨98, _⟩ => ⟨S1x32, .f32⟩
  | .hbm, ⟨99, _⟩ => ⟨S50000x32, .f32⟩
  | .hbm, ⟨100, _⟩ => ⟨S50000x32, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call0_cst : Ref sig .tc := ⟨.hbm, 26, rfl⟩
abbrev main_call0_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_call1_cst : Ref sig .tc := ⟨.hbm, 34, rfl⟩
abbrev main_call1_v0 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call2_cst : Ref sig .tc := ⟨.hbm, 61, rfl⟩
abbrev main_call2_v0 : Ref sig .tc := ⟨.hbm, 62, rfl⟩
abbrev main_v37 : Ref sig .tc := ⟨.hbm, 63, rfl⟩
abbrev main_c_1 : Ref sig .tc := ⟨.hbm, 64, rfl⟩
abbrev main_v38 : Ref sig .tc := ⟨.hbm, 65, rfl⟩
abbrev main_v39 : Ref sig .tc := ⟨.hbm, 66, rfl⟩
abbrev main_c_2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_3 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call3_cst : Ref sig .tc := ⟨.hbm, 88, rfl⟩
abbrev main_call3_v0 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  transposes_S128x512_S512x128_1_0 : S128x512.Transposes [1, 0] S512x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  transposes_S32x128_S128x32_1_0 : S32x128.Transposes [1, 0] S128x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x512_S512x128_S50000x128_1_0_0_1_n_n_wf : DotDims.WF S50000x512 S512x128 S50000x128 [1] [0] [0] [1] [] []
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x32_S50000x32_1_0_0_1_n_n_wf : DotDims.WF S50000x128 S128x32 S50000x32 [1] [0] [0] [1] [] []

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf

class Facts : Prop extends Facts₀ where

variable [Facts]
-- ==== Proof.KernelRun.lean ====
/-
  The idealized kernel program's run, with the whole final memory named.

  @main is three kernel launches among stretches of host operations. Its run is a fold of buffer contents through
  those six segments, from the launch memory to the contents at the return; every weakly fair execution terminates
  without a fault, and in the final state EVERY buffer that outlives a launch holds what that fold leaves in it at the
  last boundary. The frame claim keeps of this only the argument arrays; a value claim also needs the two result
  arrays, so the same run is stated here with the post not narrowed.
-/
import proofs.«115264_j47579647705647_2_alg».proof.Proof.Gen.KernelIdeal.Frame

set_option maxRecDepth 16384

noncomputable section

namespace Cert.KernelIdeal.EndState

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer that is not scoped to a
    launch ends at the contents the fold through @main's segments leaves at the last boundary. -/
theorem run_end : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- A buffer of the TensorCore that is not scoped to a launch, at the end of the run. -/
theorem end_at {r : PUnit × MemSt nD τ sig (Elt F)}
    (h : ∀ c : Dev nD, ∀ b ∈ Pipeline.ucRefs τ sig, r.2.mem (((c : Thread nD τ)).1, b) = W6 m ρ c b)
    (c : Dev nD) (b : Ref sig .tc) (hb : ¬ (Proc.devRef .tc b : DevRef τ sig).isScoped) :
    r.2.mem ((c.tc : Thread nD τ).loc b) = W6 m ρ c (Proc.devRef .tc b) :=
  h c _ (mem_uc b hb)

end Cert.KernelIdeal.EndState

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«115264_j47579647705647_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«115264_j47579647705647_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«115264_j47579647705647_2_alg».proof.Proof.LibBlockReads
import proofs.«115264_j47579647705647_2_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibSplitLayers.lean ====
/-
  Layers of a perceptron over the extended reals whose first matrix product is taken band by band.

  A layer is a product with a matrix, a bias row added to every row, and the maximum with zero. When the input is
  several arrays laid side by side and the matrix is cut into the matching bands of rows, the one product is the sum
  of the bands' products: a sum over the joined column index splits into the sums over each band's columns, and that
  uses only that addition of extended reals is associative and commutative. A band of a single column is the
  product of a column with a row. Every entry of a layer depends on one row of its inputs, so a block of rows of the
  result is the layer of that block of rows.
-/
import Idealize.ShloMosaic.PureOps.Ideal.Laws
import Idealize.ShloMosaic.Lib.ValueIdx
import Idealize.ShloMosaic.Lib.Pipeline.Value
import proofs.«115264_j47579647705647_2_alg».proof.Proof.LibBlockReads
import proofs.«115264_j47579647705647_2_alg».proof.Proof.LibMatProd
import proofs.«115264_j47579647705647_2_alg».proof.Proof.LibRowVector
import proofs.«115264_j47579647705647_2_alg».proof.Proof.LibBiasRelu

open scoped BigOperators

noncomputable section

namespace Cert.Lib.SplitLayers

open Idealize.ShloMosaic Idealize.ShloMosaic.ValueIdx Cert.Lib.MatProd Cert.Lib.BiasRelu Cert.Lib.RowVector

variable {r r' k k₁ k₂ k₃ n : Nat}

/-! ## One layer -/

/-- Entry (p, q) is max (∑ c, X(p, c) · W(c, q) + b(0, q)) 0. -/
def layer (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  biasRelu (matProd X W) b

/-- Row p' of the layer of X' is row p of the layer of X when row p' of X' is row p of X. -/
theorem layer_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (h : ∀ c : Fin k, X' (ix2 p' c) = X (ix2 p c)) :
    layer X' W b (ix2 p' q) = layer X W b (ix2 p q) :=
  biasRelu_rows _ _ b p' p q (matProd_block X X' W W p' q p q h fun _ => rfl)

/-- The same for a layer without the maximum read through a final function applied entry by entry. -/
theorem matProd_rows (X : (⟨2, ![r, k]⟩ : Shape).Idx → EReal) (X' : (⟨2, ![r', k]⟩ : Shape).Idx → EReal)
    (W : (⟨2, ![k, n]⟩ : Shape).Idx → EReal) (p' : Fin r') (p : Fin r) (q : Fin n)
    (h : ∀ c : Fin k, X' (ix2 p' c) = X (ix2 p c)) : matProd X' W (ix2 p' q) = matProd X W (ix2 p q) :=
  matProd_block X X' W W p' q p q h fun _ => rfl

/-- A bias row broadcast down the rows and added, then the maximum with a splat of the zero word. -/
theorem relu_bias_eq (M : FVec Ideal ⟨2, ![r, n]⟩ .f32) (b : FVec Ideal ⟨2, ![1, n]⟩ .f32)
    (hb : (⟨2, ![1, n]⟩ : Shape).Broadcasts ⟨2, ![r, n]⟩) :
    maximumf (addf M (broadcastTo ⟨2, ![r, n]⟩ b hb))
      (broadcast ⟨2, ![r, n]⟩ (Scalar.ofBits (F := Ideal) .f32 0x00000000#32)) = biasRelu M b := by
  funext i
  obtain ⟨p, q, rfl⟩ : ∃ (p : Fin r) (q : Fin n), i = ix2 p q := ⟨i 0, i 1, eq_ix2 i⟩
  rw [maximumf_apply, addf_apply, Cert.Lib.BlockReads.broadcast_row_apply]
  rfl

/-- The reference's spelling of a layer: the host's product, the bias vector broadcast into a row and down the
    rows, the maximum with a broadcast zero. -/
theorem host_layer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (Host.dotGeneral d none X W)
        (broadcastInDim ⟨2, ![r, n]⟩ ![0, 1] h2 (broadcastInDim ⟨2, ![1, n]⟩ ![1] h1 bv)))
      (broadcastInDim ⟨2, ![r, n]⟩ ![] h3 (constant (F := Ideal) ⟨0, ![]⟩ .f32 0x00000000#32))
    = layer X W (asRow bv) := by
  rw [Cert.Lib.BiasRelu.host_eq]
  unfold layer
  congr 1
  exact dotGeneral_eq_matProd d hlc hrc hln hrn hlb hrb none _ X W

/-! ## A column times a row -/

/-- A column broadcast along the rows times a row broadcast down the rows is the product of the r×1 by the 1×n
    array: the sum over the one contracted index. -/
theorem outer_eq (E : FVec Ideal ⟨2, ![r, 1]⟩ .f32) (w : FVec Ideal ⟨2, ![1, n]⟩ .f32)
    (he : (⟨2, ![r, 1]⟩ : Shape).Broadcasts ⟨2, ![r, n]⟩) (hw : (⟨2, ![1, n]⟩ : Shape).Broadcasts ⟨2, ![r, n]⟩) :
    mulf (broadcastTo ⟨2, ![r, n]⟩ E he) (broadcastTo ⟨2, ![r, n]⟩ w hw) = matProd E w := by
  funext i
  obtain ⟨p, q, rfl⟩ : ∃ (p : Fin r) (q : Fin n), i = ix2 p q := ⟨i 0, i 1, eq_ix2 i⟩
  rw [mulf_apply, Cert.Lib.BlockReads.broadcast_row_apply, matProd_apply, Fin.sum_univ_one]
  congr 1
  refine broadcastTo_apply E he (ix2 p q) (ix2 p 0) fun a => ?_
  match a with
  | ⟨0, _⟩ =>
    show p.val = if r = 1 then 0 else p.val
    split_ifs with hr
    · have := p.isLt; omega
    · rfl
  | ⟨1, _⟩ => rfl

/-! ## Two and three bands -/

/-- Entry (p, q) is max ((∑ U(p,c)·Wu(c,q) + ∑ V(p,c)·Wv(c,q)) + b(0,q)) 0. -/
def layer2 (U : (⟨2, ![r, k₁]⟩ : Shape).Idx → EReal) (V : (⟨2, ![r, k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) : (⟨2, ![r, n]⟩ : Shape).Idx → EReal :=
  biasRelu (fun i => matProd U Wu i + matProd V Wv i) b

/-- Entry (p, q) is max (((∑ U(p,c)·Wu(c,q) + ∑ V(p,c)·Wv(c,q)) + ∑ E(p,c)·We(c,q)) + b(0,q)) 0. -/
def layer3 (U : (⟨2, ![r, k₁]⟩ : Shape).Idx → EReal) (V : (⟨2, ![r, k₂]⟩ : Shape).Idx → EReal)
    (E : (⟨2, ![r, k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) : (⟨2, ![r, n]⟩ : Shape).Idx → EReal :=
  biasRelu (fun i => matProd U Wu i + matProd V Wv i + matProd E We i) b

theorem layer2_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c)) :
    layer2 U' V' Wu Wv b (ix2 p' q) = layer2 U V Wu Wv b (ix2 p q) := by
  refine biasRelu_rows _ _ b p' p q ?_
  show matProd U' Wu (ix2 p' q) + matProd V' Wv (ix2 p' q) = matProd U Wu (ix2 p q) + matProd V Wv (ix2 p q)
  rw [matProd_rows U U' Wu p' p q hU, matProd_rows V V' Wv p' p q hV]

theorem layer3_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (E : (⟨2, ![r, k₃]⟩ : Shape).Idx → EReal) (E' : (⟨2, ![r', k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c))
    (hE : ∀ c : Fin k₃, E' (ix2 p' c) = E (ix2 p c)) :
    layer3 U' V' E' Wu Wv We b (ix2 p' q) = layer3 U V E Wu Wv We b (ix2 p q) := by
  refine biasRelu_rows _ _ b p' p q ?_
  show matProd U' Wu (ix2 p' q) + matProd V' Wv (ix2 p' q) + matProd E' We (ix2 p' q)
    = matProd U Wu (ix2 p q) + matProd V Wv (ix2 p q) + matProd E We (ix2 p q)
  rw [matProd_rows U U' Wu p' p q hU, matProd_rows V V' Wv p' p q hV, matProd_rows E E' We p' p q hE]

end Cert.Lib.SplitLayers

end
-- ==== Proof.LibGraphLayers.lean ====
/-
  The layers of a two-round graph encoder on the extended reals, as functions of whole arrays.

  A graph-convolution layer takes the aggregated messages A and the node features H (both r×k), two weight matrices
  R and Q (k×n) and a bias row b, and returns max ((A·R + b) + H·Q, 0) entry by entry; a linear head returns H·W + b.
  Here are the two functions, the kernel body's spelling of each (products accumulated into zeros over operands whose
  change of float format is the identity on the extended reals, the bias row broadcast down the rows, the maximum
  taken with a splat of the zero word), the reference's spelling (the host's dot_general, the bias vector broadcast
  into a row and then down the rows, the maximum with a broadcast zero), and the fact that row p of a result depends on
  row p of A and of H only, so that a block of rows of the result is the layer of that block of rows. Sums and the
  additions of extended reals are taken exactly in the order both programs write them, so no finiteness is asked.
  Nothing here mentions a program.
-/
import Idealize.ShloMosaic.PureOps.Ideal.Laws
import Idealize.ShloMosaic.Lib.ValueIdx
import Idealize.ShloMosaic.Lib.Pipeline.Value
import proofs.«115264_j47579647705647_2_alg».proof.Proof.LibBlockReads
import proofs.«115264_j47579647705647_2_alg».proof.Proof.LibMatProd
import proofs.«115264_j47579647705647_2_alg».proof.Proof.LibRowVector
import proofs.«115264_j47579647705647_2_alg».proof.Proof.LibBiasRelu
import proofs.«115264_j47579647705647_2_alg».proof.Proof.LibSplitLayers

open scoped BigOperators

noncomputable section

namespace Cert.Lib.GraphLayers

open Idealize.ShloMosaic Idealize.ShloMosaic.ValueIdx Cert.Lib.MatProd Cert.Lib.BiasRelu Cert.Lib.RowVector
  Cert.Lib.SplitLayers

variable {r r' k n : Nat}

/-! ## A change of float format is the identity on the extended reals -/

theorem truncf_id {s : Shape} {φ ψ : FTy} (a : FVec Ideal s φ) (h : ψ.bits < φ.bits) :
    (truncf ψ a h : FVec Ideal s ψ) = a := rfl

/-! ## One dense layer, in the kernel body's spelling -/

/-- A product into zeros of the operands (their format changed, which is the identity), the bias row broadcast down
    the rows and added, the maximum with a splat of the zero word: the layer max (X·W + b, 0). -/
theorem layer_body (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    {φ : FTy} (X : FVec Ideal ⟨2, ![r, k]⟩ φ) (W : FVec Ideal ⟨2, ![k, n]⟩ .f32) (b : FVec Ideal ⟨2, ![1, n]⟩ .f32)
    (hW : FTy.bits .bf16 < FTy.bits .f32) (hb : (⟨2, ![1, n]⟩ : Shape).Broadcasts ⟨2, ![r, n]⟩) :
    maximumf (addf (matmul d none X (truncf .bf16 W hW) (constant ⟨2, ![r, n]⟩ .f32 0x00000000#32))
        (broadcastTo ⟨2, ![r, n]⟩ b hb))
      (broadcast ⟨2, ![r, n]⟩ (Scalar.ofBits (F := Ideal) .f32 0x00000000#32)) = layer X W b := by
  rw [matmul_zero_eq_matProd d hlc hrc hln hrn hlb hrb none X (truncf .bf16 W hW)]
  exact relu_bias_eq (matProd X W) b hb

/-! ## The graph-convolution layer -/

/-- Entry (p, q) is max ((∑ c, A(p,c)·R(c,q) + b(0,q)) + ∑ c, H(p,c)·Q(c,q), 0). -/
def conv (A H : (⟨2, ![r, k]⟩ : Shape).Idx → EReal) (R Q : (⟨2, ![k, n]⟩ : Shape).Idx → EReal)
    (b : (⟨2, ![1, n]⟩ : Shape).Idx → EReal) : (⟨2, ![r, n]⟩ : Shape).Idx → EReal :=
  fun i => max ((matProd A R i + b (ix2 (0 : Fin 1) (⟨(i 1).val, idx2_lt1 i⟩ : Fin n))) + matProd H Q i)
    (Ideal.ofBits .f32 0x00000000#32)

theorem conv_apply (A H : (⟨2, ![r, k]⟩ : Shape).Idx → EReal) (R Q : (⟨2, ![k, n]⟩ : Shape).Idx → EReal)
    (b : (⟨2, ![1, n]⟩ : Shape).Idx → EReal) (p : Fin r) (q : Fin n) :
    conv A H R Q b (ix2 p q)
      = max ((matProd A R (ix2 p q) + b (ix2 0 q)) + matProd H Q (ix2 p q)) (Ideal.ofBits .f32 0x00000000#32) := rfl

/-- Row p' of the layer of (A', H') is row p of the layer of (A, H) when the rows of the inputs agree. -/
theorem conv_rows (A H : (⟨2, ![r, k]⟩ : Shape).Idx → EReal) (A' H' : (⟨2, ![r', k]⟩ : Shape).Idx → EReal)
    (R Q : (⟨2, ![k, n]⟩ : Shape).Idx → EReal) (b : (⟨2, ![1, n]⟩ : Shape).Idx → EReal)
    (p' : Fin r') (p : Fin r) (q : Fin n)
    (hA : ∀ c : Fin k, A' (ix2 p' c) = A (ix2 p c)) (hH : ∀ c : Fin k, H' (ix2 p' c) = H (ix2 p c)) :
    conv A' H' R Q b (ix2 p' q) = conv A H R Q b (ix2 p q) := by
  rw [conv_apply, conv_apply, matProd_rows A A' R p' p q hA, matProd_rows H H' Q p' p q hH]

/-- The kernel body's spelling. -/
theorem conv_body (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A H : FVec Ideal ⟨2, ![r, k]⟩ .f32) (R Q : FVec Ideal ⟨2, ![k, n]⟩ .f32) (b : FVec Ideal ⟨2, ![1, n]⟩ .f32)
    (hW : FTy.bits .bf16 < FTy.bits .f32) (hb : (⟨2, ![1, n]⟩ : Shape).Broadcasts ⟨2, ![r, n]⟩) :
    maximumf (addf (addf (matmul d none (truncf .bf16 A hW) (truncf .bf16 R hW) (constant ⟨2, ![r, n]⟩ .f32 0x00000000#32))
          (broadcastTo ⟨2, ![r, n]⟩ b hb))
        (matmul d none (truncf .bf16 H hW) (truncf .bf16 Q hW) (constant ⟨2, ![r, n]⟩ .f32 0x00000000#32)))
      (broadcast ⟨2, ![r, n]⟩ (Scalar.ofBits (F := Ideal) .f32 0x00000000#32)) = conv A H R Q b := by
  rw [matmul_zero_eq_matProd d hlc hrc hln hrn hlb hrb none (truncf .bf16 A hW) (truncf .bf16 R hW),
    matmul_zero_eq_matProd d hlc hrc hln hrn hlb hrb none (truncf .bf16 H hW) (truncf .bf16 Q hW)]
  funext i
  obtain ⟨p, q, rfl⟩ : ∃ (p : Fin r) (q : Fin n), i = ix2 p q := ⟨i 0, i 1, eq_ix2 i⟩
  rw [maximumf_apply, addf_apply, addf_apply, Cert.Lib.BlockReads.broadcast_row_apply]
  rfl

/-- The reference's spelling. -/
theorem conv_host (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A H : FVec Ideal ⟨2, ![r, k]⟩ .f32) (R Q : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (addf (Host.dotGeneral d none A R)
          (broadcastInDim ⟨2, ![r, n]⟩ ![0, 1] h2 (broadcastInDim ⟨2, ![1, n]⟩ ![1] h1 bv)))
        (Host.dotGeneral d none H Q))
      (broadcastInDim ⟨2, ![r, n]⟩ ![] h3 (constant (F := Ideal) ⟨0, ![]⟩ .f32 0x00000000#32))
    = conv A H R Q (asRow bv) := by
  have e1 : Host.dotGeneral d none A R = matProd A R := dotGeneral_eq_matProd d hlc hrc hln hrn hlb hrb none _ A R
  have e2 : Host.dotGeneral d none H Q = matProd H Q := dotGeneral_eq_matProd d hlc hrc hln hrn hlb hrb none _ H Q
  rw [e1, e2]
  funext i
  obtain ⟨p, q, rfl⟩ : ∃ (p : Fin r) (q : Fin n), i = ix2 p q := ⟨i 0, i 1, eq_ix2 i⟩
  rw [maximumf_apply, addf_apply, addf_apply, bcastInDim_rows_apply, bcastInDim_eq_asRow, bcastInDim_scalar_apply]
  rfl

/-! ## The linear head -/

/-- Entry (p, q) is ∑ c, H(p,c)·W(c,q) + b(0,q). -/
def head (H : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  fun i => matProd H W i + b (ix2 (0 : Fin 1) (⟨(i 1).val, idx2_lt1 i⟩ : Fin n))

theorem head_apply (H : (⟨2, ![r, k]⟩ : Shape).Idx → EReal) (W : (⟨2, ![k, n]⟩ : Shape).Idx → EReal)
    (b : (⟨2, ![1, n]⟩ : Shape).Idx → EReal) (p : Fin r) (q : Fin n) :
    head H W b (ix2 p q) = matProd H W (ix2 p q) + b (ix2 0 q) := rfl

theorem head_rows (H : (⟨2, ![r, k]⟩ : Shape).Idx → EReal) (H' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (hH : ∀ c : Fin k, H' (ix2 p' c) = H (ix2 p c)) :
    head H' W b (ix2 p' q) = head H W b (ix2 p q) := by
  rw [head_apply, head_apply, matProd_rows H H' W p' p q hH]

/-- The kernel body's spelling: the left operand is already in the narrow format. -/
theorem head_body (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    {φ : FTy} (H : FVec Ideal ⟨2, ![r, k]⟩ φ) (W : FVec Ideal ⟨2, ![k, n]⟩ .f32) (b : FVec Ideal ⟨2, ![1, n]⟩ .f32)
    (hW : FTy.bits .bf16 < FTy.bits .f32) (hb : (⟨2, ![1, n]⟩ : Shape).Broadcasts ⟨2, ![r, n]⟩) :
    addf (matmul d none H (truncf .bf16 W hW) (constant ⟨2, ![r, n]⟩ .f32 0x00000000#32))
      (broadcastTo ⟨2, ![r, n]⟩ b hb) = head H W b := by
  rw [matmul_zero_eq_matProd d hlc hrc hln hrn hlb hrb none H (truncf .bf16 W hW)]
  funext i
  obtain ⟨p, q, rfl⟩ : ∃ (p : Fin r) (q : Fin n), i = ix2 p q := ⟨i 0, i 1, eq_ix2 i⟩
  rw [addf_apply, Cert.Lib.BlockReads.broadcast_row_apply]
  rfl

/-- The reference's spelling. -/
theorem head_host (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (H : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf (Host.dotGeneral d none H W)
      (broadcastInDim ⟨2, ![r, n]⟩ ![0, 1] h2 (broadcastInDim ⟨2, ![1, n]⟩ ![1] h1 bv)) = head H W (asRow bv) := by
  have e1 : Host.dotGeneral d none H W = matProd H W := dotGeneral_eq_matProd d hlc hrc hln hrn hlb hrb none _ H W
  rw [e1]
  funext i
  obtain ⟨p, q, rfl⟩ : ∃ (p : Fin r) (q : Fin n), i = ix2 p q := ⟨i 0, i 1, eq_ix2 i⟩
  rw [addf_apply, bcastInDim_rows_apply, bcastInDim_eq_asRow]
  rfl

end Cert.Lib.GraphLayers

end
-- ==== Proof.Payloads.lean ====
/-
  What each kernel body stores, as a layer of the blocks it loaded, on the extended reals.

  The first body stores the two-layer perceptron of its block of rows; the second the graph-convolution layer of its
  blocks of aggregated messages and node features; the third the two linear heads of that layer. Re-shaping a vector to
  its own shape and narrowing its float format change nothing on the extended reals, so each stored value is the
  layer function of the loaded blocks, whatever the block's number of rows.
-/
import proofs.«115264_j47579647705647_2_alg».proof.Proof.Gen.KernelIdeal.Skeleton
import proofs.«115264_j47579647705647_2_alg».proof.Proof.LibGraphLayers

noncomputable section

namespace Cert.KernelIdeal.Payloads

open Cert.KernelIdeal Cert.KernelIdeal.Gen
open Idealize.ShloMosaic Idealize.ShloMosaic.ValueIdx Cert.Lib.SplitLayers Cert.Lib.GraphLayers

/-- The first body: max (max (x·W₁ + b₁, 0)·W₂ + b₂, 0) of its 2000 rows. -/
theorem encoder_block (x0 : Vec Ideal S2000x512 .f32) (x1 : Vec Ideal S512x128 .f32) (x2 : Vec Ideal S1x128 .f32)
    (x3 : Vec Ideal S128x128 .f32) (x4 : Vec Ideal S1x128 .f32) :
    k0_pay1 (F := Ideal) x0 x1 x2 x3 x4 = layer (layer x0 x1 x2) x3 x4 := by
  unfold k0_pay1
  simp only [shapeCast_self]
  rw [layer_body dot_S2000x512_S512x128_S2000x128_1_0_0_1_n_n rfl rfl rfl rfl rfl rfl
      (truncf .bf16 x0 bitsLt_bf16_f32) x1 x2 bitsLt_bf16_f32 broadcasts_S1x128_S2000x128]
  exact layer_body dot_S2000x128_S128x128_S2000x128_1_0_0_1_n_n rfl rfl rfl rfl rfl rfl
      (truncf .bf16 (layer x0 x1 x2) bitsLt_bf16_f32) x3 x4 bitsLt_bf16_f32 broadcasts_S1x128_S2000x128

/-- The second body: max ((A·R + b) + H·Q, 0) of its 5000 rows. -/
theorem conv_block (v0 : Vec Ideal S5000x128 .f32) (v3 : Vec Ideal S128x128 .f32) (v6 : Vec Ideal S5000x128 .f32)
    (v9 : Vec Ideal S128x128 .f32) (v13 : Vec Ideal S1x128 .f32) :
    k1_pay1 (F := Ideal) v0 v3 v6 v9 v13 = conv v0 v6 v3 v9 v13 := by
  unfold k1_pay1
  simp only [shapeCast_self]
  exact conv_body dot_S5000x128_S128x128_S5000x128_1_0_0_1_n_n rfl rfl rfl rfl rfl rfl v0 v6 v3 v9 v13
    bitsLt_bf16_f32 broadcasts_S1x128_S5000x128

/-- The third body's hidden layer (in the narrow format, which changes nothing). -/
theorem hidden_block (v0 : Vec Ideal S5000x128 .f32) (v3 : Vec Ideal S128x128 .f32) (v6 : Vec Ideal S5000x128 .f32)
    (v9 : Vec Ideal S128x128 .f32) (v13 : Vec Ideal S1x128 .f32) :
    k2_pay2 (F := Ideal) v0 v3 v6 v9 v13 = conv v0 v6 v3 v9 v13 := by
  unfold k2_pay2
  simp only [shapeCast_self]
  exact conv_body dot_S5000x128_S128x128_S5000x128_1_0_0_1_n_n rfl rfl rfl rfl rfl rfl v0 v6 v3 v9 v13
    bitsLt_bf16_f32 broadcasts_S1x128_S5000x128

/-- The third body's first store: the head W, b of the hidden layer. -/
theorem head_block (v0 : Vec Ideal S5000x128 .f32) (v3 : Vec Ideal S128x128 .f32) (v6 : Vec Ideal S5000x128 .f32)
    (v9 : Vec Ideal S128x128 .f32) (v13 : Vec Ideal S1x128 .f32) (v22 : Vec Ideal S128x32 .f32)
    (v29 : Vec Ideal S1x32 .f32) :
    k2_pay3 (F := Ideal) v0 v3 v6 v9 v13 v22 v29 = head (conv v0 v6 v3 v9 v13) v22 v29 := by
  unfold k2_pay3
  simp only [shapeCast_self]
  rw [hidden_block]
  exact head_body dot_S5000x128_S128x32_S5000x32_1_0_0_1_n_n rfl rfl rfl rfl rfl rfl
    (conv v0 v6 v3 v9 v13) v22 v29 bitsLt_bf16_f32 broadcasts_S1x32_S5000x32

/-- The third body's second store: the other head of the same hidden layer. -/
theorem head_block' (v0 : Vec Ideal S5000x128 .f32) (v3 : Vec Ideal S128x128 .f32) (v6 : Vec Ideal S5000x128 .f32)
    (v9 : Vec Ideal S128x128 .f32) (v13 : Vec Ideal S1x128 .f32) (v25 : Vec Ideal S128x32 .f32)
    (v34 : Vec Ideal S1x32 .f32) :
    k2_pay1 (F := Ideal) (k2_pay4 v0 v3 v6 v9 v13 v25) (k2_pay5 v34) = head (conv v0 v6 v3 v9 v13) v25 v34 := by
  unfold k2_pay1 k2_pay4 k2_pay5
  simp only [shapeCast_self]
  rw [hidden_block]
  exact head_body dot_S5000x128_S128x32_S5000x32_1_0_0_1_n_n rfl rfl rfl rfl rfl rfl
    (conv v0 v6 v3 v9 v13) v25 v34 bitsLt_bf16_f32 broadcasts_S1x32_S5000x32

end Cert.KernelIdeal.Payloads

end
-- ==== Proof.Perceptron.lean ====
/-
  The first launch (the two-layer perceptron), from blocks to the whole array.

  The launch walks 25 blocks of 2000 rows. At block t the body loads rows 2000·t … 2000·t + 1999 of the features and the
  whole of each weight matrix and bias row, and writes back rows 2000·t … of the result. Every entry of a layer depends on
  one row of its input, so what block t writes back is block t of the layer function of the WHOLE arrays; the 25 blocks
  tile the 50000 rows, so the result array ends holding that function of the arrays the launch found.
-/
import proofs.«115264_j47579647705647_2_alg».proof.Proof.Gen.KernelIdeal.Frame
import proofs.«115264_j47579647705647_2_alg».proof.Proof.LibGraphLayers
import proofs.«115264_j47579647705647_2_alg».proof.Proof.Payloads
import Idealize.ShloMosaic.Lib.Pipeline.Value
import Idealize.ShloMosaic.Lib.Tactic

set_option maxRecDepth 16384

noncomputable section

namespace Cert.KernelIdeal.Perceptron

open Cert.KernelIdeal Cert.KernelIdeal.Gen Cert.KernelIdeal.Payloads
open Idealize.ShloMosaic Idealize.ShloMosaic.TcCoe Idealize.SL.Sem Idealize.ShloMosaic.ValueIdx
open Idealize.ShloMosaic.Pipeline (Dat)
open Cert.Lib.SplitLayers Cert.Lib.GraphLayers

variable (V : (c : Dev nD) → (b : Ref sig .tc) → Buf (Elt Ideal) ((c : Thread nD τ).loc b))

theorem hz : (![0, 0] : Fin 2 → Nat) = fun _ => 0 := funext fun a => by fin_cases a <;> rfl

/-- The perceptron of whole arrays: 50000 rows of 512 features to 128. -/
def mlp (x : S50000x512.Idx → EReal) (w1 : S512x128.Idx → EReal) (b1 : S1x128.Idx → EReal)
    (w2 : S128x128.Idx → EReal) (b2 : S1x128.Idx → EReal) : S50000x128.Idx → EReal :=
  layer (layer x w1 b1) w2 b2

/-- The index maps, decided over the 25 points: the features and the result move with the point along the rows,
    every other window stays at block (0, 0). -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The features' block at point t is rows 2000·t … of the features. -/
theorem rows_x (c : Dev nD) (t : Fin cfg0.N) (p : Fin 2000) (q : Fin 512) (hp : t.val * 2000 + p.val < 50000) :
    (iblk0 V c 0 t : Vec Ideal S2000x512 .f32) (ix2 p q)
      = (V c main_arg0 : S50000x512.Idx → EReal) (ix2 (⟨t.val * 2000 + p.val, hp⟩ : Fin 50000) q) := by
  obtain ⟨e0, e1, -⟩ := idx t
  unfold iblk0
  rw [View.read_apply]
  show V c main_arg0 _ = V c main_arg0 _
  congr 1
  funext a
  apply Fin.ext
  match a with
  | ⟨0, _⟩ => show win0_0.index t 0 * 2000 + 1 * p.val = t.val * 2000 + p.val; rw [e0]; omega
  | ⟨1, _⟩ => show win0_0.index t 1 * 512 + 1 * q.val = q.val; rw [e1]; omega

/-- The first weight matrix is loaded whole at every point. -/
theorem whole_w1 (c : Dev nD) (t : Fin cfg0.N) :
    (iblk0 V c 1 t : Vec Ideal S512x128 .f32) = (V c main_v4 : S512x128.Idx → EReal) := by
  obtain ⟨-, -, e0, e1, -⟩ := idx t
  funext y
  unfold iblk0
  rw [View.read_apply]
  show V c main_v4 _ = V c main_v4 y
  congr 1
  funext a
  apply Fin.ext
  match a with
  | ⟨0, _⟩ => show win0_1.index t 0 * 512 + 1 * (y 0).val = (y 0).val; rw [e0]; omega
  | ⟨1, _⟩ => show win0_1.index t 1 * 128 + 1 * (y 1).val = (y 1).val; rw [e1]; omega

theorem whole_b1 (c : Dev nD) (t : Fin cfg0.N) :
    (iblk0 V c 2 t : Vec Ideal S1x128 .f32) = (V c main_v12 : S1x128.Idx → EReal) := by
  obtain ⟨-, -, -, -, e0, e1, -⟩ := idx t
  funext y
  unfold iblk0
  rw [View.read_apply]
  show V c main_v12 _ = V c main_v12 y
  congr 1
  funext a
  apply Fin.ext
  match a with
  | ⟨0, _⟩ => show win0_2.index t 0 * 1 + 1 * (y 0).val = (y 0).val; rw [e0]; omega
  | ⟨1, _⟩ => show win0_2.index t 1 * 128 + 1 * (y 1).val = (y 1).val; rw [e1]; omega

theorem whole_w2 (c : Dev nD) (t : Fin cfg0.N) :
    (iblk0 V c 3 t : Vec Ideal S128x128 .f32) = (V c main_v5 : S128x128.Idx → EReal) := by
  obtain ⟨-, -, -, -, -, -, e0, e1, -⟩ := idx t
  funext y
  unfold iblk0
  rw [View.read_apply]
  show V c main_v5 _ = V c main_v5 y
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

theorem whole_b2 (c : Dev nD) (t : Fin cfg0.N) :
    (iblk0 V c 4 t : Vec Ideal S1x128 .f32) = (V c main_v13 : S1x128.Idx → EReal) := by
  obtain ⟨-, -, -, -, -, -, -, -, e0, e1, -⟩ := idx t
  funext y
  unfold iblk0
  rw [View.read_apply]
  show V c main_v13 _ = V c main_v13 y
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- What point t writes back is block t of the perceptron of the whole arrays. -/
theorem flushed_eq (c : Dev nD) (t : Fin cfg0.N) :
    (dat0 V c).flushed 5 t = ((cfg0.win 5).blk t).view.read (Elt Ideal)
      (mlp (V c main_arg0) (V c main_v4) (V c main_v12) (V c main_v5) (V c main_v13)) := by
  show (cfg0.win 5).cut (grid0.coords t) ((dat0 V c).after 5 t) = _
  rw [after0_5]
  unfold out0_5
  rw [View.canon_unit_zero hz]
  simp only [View.ld_unit_zero (S := S2000x512) hz, View.ld_unit_zero (S := S512x128) hz,
    View.ld_unit_zero (S := S1x128) hz, View.ld_unit_zero (S := S128x128) hz]
  rw [encoder_block, whole_w1 V c t, whole_b1 V c t, whole_w2 V c t, whole_b2 V c t]
  funext j
  obtain ⟨p, q, rfl⟩ : ∃ (p : Fin 2000) (q : Fin 128), j = ix2 p q := ⟨j 0, j 1, eq_ix2 j⟩
  have hN : cfg0.N = 25 := N_0
  have hp : t.val * 2000 + p.val < 50000 := by have h1 := t.isLt; have h2 := p.isLt; omega
  have hemb : ((cfg0.win 5).blk t).view.emb (ix2 p q) = ix2 (⟨t.val * 2000 + p.val, hp⟩ : Fin 50000) q := by
    obtain ⟨-, -, -, -, -, -, -, -, -, -, e0, e1⟩ := idx t
    funext a
    apply Fin.ext
    match a with
    | ⟨0, _⟩ => show win0_5.index t 0 * 2000 + 1 * p.val = t.val * 2000 + p.val; rw [e0]; omega
    | ⟨1, _⟩ => show win0_5.index t 1 * 128 + 1 * q.val = q.val; rw [e1]; omega
  show layer (layer (iblk0 V c 0 t) _ _) _ _ (ix2 p q)
    = mlp (V c main_arg0) (V c main_v4) (V c main_v12) (V c main_v5) (V c main_v13) (((cfg0.win 5).blk t).view.emb (ix2 p q))
  rw [hemb]
  unfold mlp
  exact layer_rows _ _ _ _ p ⟨_, hp⟩ q fun c1 => layer_rows _ _ _ _ p ⟨_, hp⟩ c1 fun c2 => rows_x V c t p c2 hp

/-- An index of the result is in point t's block iff its row is among the block's 2000 rows. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v18).slice (win0_5.rect t)).set ↔ _
  rw [View.set_slice_whole, Rect.mem_set_unit]
  exact Iff.rfl

/-- Row r of the result is written back by point r / 2000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, -, -, -, -, e0, e1⟩ := idx t
  refine ⟨t, flush0_5 t, ?_⟩
  rw [mem_blk]
  intro a
  match a with
  | ⟨0, _⟩ =>
    show win0_5.index t 0 * 2000 ≤ (i 0).val ∧ (i 0).val < win0_5.index t 0 * 2000 + 2000
    rw [e0, ht]; omega
  | ⟨1, _⟩ =>
    show win0_5.index t 1 * 128 ≤ (i 1).val ∧ (i 1).val < win0_5.index t 1 * 128 + 128
    rw [e1]; omega

/-- The result array after the launch is the perceptron of the arrays the launch found. -/
theorem final (c : Dev nD) : (dat0 V c).arrAt 5 cfg0.N
    = mlp (V c main_arg0) (V c main_v4) (V c main_v12) (V c main_v5) (V c main_v13) :=
  (dat0 V c).arrAt_eq_of_cover 5 _ (fun t _ => flushed_eq V c t) cover

end Cert.KernelIdeal.Perceptron

end
-- ==== Proof.GraphConv.lean ====
/-
  The second launch (the first graph-convolution layer), from blocks to the whole array.

  The launch walks 10 blocks of 5000 rows. At block t the body loads rows 5000·t … of the aggregated messages and of
  the node features and the whole of the two weight matrices and the bias row, and writes back the same rows of the
  result. Every entry of the layer depends on one row of the messages and one row of the features, so what block t
  writes back is block t of the layer of the WHOLE arrays; the 10 blocks tile the 50000 rows.
-/
import proofs.«115264_j47579647705647_2_alg».proof.Proof.Gen.KernelIdeal.Frame
import proofs.«115264_j47579647705647_2_alg».proof.Proof.LibGraphLayers
import proofs.«115264_j47579647705647_2_alg».proof.Proof.Payloads
import Idealize.ShloMosaic.Lib.Pipeline.Value
import Idealize.ShloMosaic.Lib.Tactic

set_option maxRecDepth 16384

noncomputable section

namespace Cert.KernelIdeal.GraphConv

open Cert.KernelIdeal Cert.KernelIdeal.Gen Cert.KernelIdeal.Payloads
open Idealize.ShloMosaic Idealize.ShloMosaic.TcCoe Idealize.SL.Sem Idealize.ShloMosaic.ValueIdx
open Idealize.ShloMosaic.Pipeline (Dat)
open Cert.Lib.SplitLayers Cert.Lib.GraphLayers

variable (V : (c : Dev nD) → (b : Ref sig .tc) → Buf (Elt Ideal) ((c : Thread nD τ).loc b))

theorem hz : (![0, 0] : Fin 2 → Nat) = fun _ => 0 := funext fun a => by fin_cases a <;> rfl

/-- The graph-convolution layer of whole arrays: 50000 rows of 128 features. -/
def gconv (a h : S50000x128.Idx → EReal) (r : S128x128.Idx → EReal) (b : S1x128.Idx → EReal)
    (q : S128x128.Idx → EReal) : S50000x128.Idx → EReal :=
  conv a h r q b

/-- The index maps, decided over the 10 points: the windows over the 50000 rows move with the point, every other
    window stays at block (0, 0). -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The messages' block at point t is rows 5000·t … of the aggregated messages. -/
theorem rows_a (c : Dev nD) (t : Fin cfg1.N) (p : Fin 5000) (q : Fin 128) (hp : t.val * 5000 + p.val < 50000) :
    (iblk1 V c 0 t : Vec Ideal S5000x128 .f32) (ix2 p q)
      = (V c main_v31 : S50000x128.Idx → EReal) (ix2 (⟨t.val * 5000 + p.val, hp⟩ : Fin 50000) q) := by
  obtain ⟨e0, e1, -⟩ := idx t
  unfold iblk1
  rw [View.read_apply]
  show V c main_v31 _ = V c main_v31 _
  congr 1
  funext a
  apply Fin.ext
  match a with
  | ⟨0, _⟩ => show win1_0.index t 0 * 5000 + 1 * p.val = t.val * 5000 + p.val; rw [e0]; omega
  | ⟨1, _⟩ => show win1_0.index t 1 * 128 + 1 * q.val = q.val; rw [e1]; omega

/-- The features' block at point t is rows 5000·t … of the node features. -/
theorem rows_h (c : Dev nD) (t : Fin cfg1.N) (p : Fin 5000) (q : Fin 128) (hp : t.val * 5000 + p.val < 50000) :
    (iblk1 V c 1 t : Vec Ideal S5000x128 .f32) (ix2 p q)
      = (V c main_v18 : S50000x128.Idx → EReal) (ix2 (⟨t.val * 5000 + p.val, hp⟩ : Fin 50000) q) := by
  obtain ⟨-, -, e0, e1, -⟩ := idx t
  unfold iblk1
  rw [View.read_apply]
  show V c main_v18 _ = V c main_v18 _
  congr 1
  funext a
  apply Fin.ext
  match a with
  | ⟨0, _⟩ => show win1_1.index t 0 * 5000 + 1 * p.val = t.val * 5000 + p.val; rw [e0]; omega
  | ⟨1, _⟩ => show win1_1.index t 1 * 128 + 1 * q.val = q.val; rw [e1]; omega

/-- The messages' weight matrix is loaded whole at every point. -/
theorem whole_r (c : Dev nD) (t : Fin cfg1.N) :
    (iblk1 V c 2 t : Vec Ideal S128x128 .f32) = (V c main_v6 : S128x128.Idx → EReal) := by
  obtain ⟨-, -, -, -, e0, e1, -⟩ := idx t
  funext y
  unfold iblk1
  rw [View.read_apply]
  show V c main_v6 _ = V c main_v6 y
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- The bias row is loaded whole at every point. -/
theorem whole_b (c : Dev nD) (t : Fin cfg1.N) :
    (iblk1 V c 3 t : Vec Ideal S1x128 .f32) = (V c main_v14 : S1x128.Idx → EReal) := by
  obtain ⟨-, -, -, -, -, -, e0, e1, -⟩ := idx t
  funext y
  unfold iblk1
  rw [View.read_apply]
  show V c main_v14 _ = V c main_v14 y
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- The features' weight matrix is loaded whole at every point. -/
theorem whole_q (c : Dev nD) (t : Fin cfg1.N) :
    (iblk1 V c 4 t : Vec Ideal S128x128 .f32) = (V c main_v7 : S128x128.Idx → EReal) := by
  obtain ⟨-, -, -, -, -, -, -, -, e0, e1, -⟩ := idx t
  funext y
  unfold iblk1
  rw [View.read_apply]
  show V c main_v7 _ = V c main_v7 y
  congr 1
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

/-- What point t writes back into the result is block t of the layer of the whole arrays. -/
theorem flushed_eq (c : Dev nD) (t : Fin cfg1.N) :
    (dat1 V c).flushed 5 t = ((cfg1.win 5).blk t).view.read (Elt Ideal) (gconv (V c main_v31) (V c main_v18) (V c main_v6) (V c main_v14) (V c main_v7)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [conv_block, whole_r V c t, whole_b V c t, whole_q V c t]
  funext j
  obtain ⟨p, q, rfl⟩ : ∃ (p : Fin 5000) (q : Fin 128), j = ix2 p q := ⟨j 0, j 1, eq_ix2 j⟩
  have hN : cfg1.N = 10 := N_1
  have hp : t.val * 5000 + p.val < 50000 := by have h1 := t.isLt; have h2 := p.isLt; omega
  have hemb : ((cfg1.win 5).blk t).view.emb (ix2 p q) = ix2 (⟨t.val * 5000 + p.val, hp⟩ : Fin 50000) q := by
    obtain ⟨-, -, -, -, -, -, -, -, -, -, e0, e1⟩ := idx t
    funext a
    apply Fin.ext
    match a with
    | ⟨0, _⟩ => show win1_5.index t 0 * 5000 + 1 * p.val = t.val * 5000 + p.val; rw [e0]; omega
    | ⟨1, _⟩ => show win1_5.index t 1 * 128 + 1 * q.val = q.val; rw [e1]; omega
  show conv (iblk1 V c 0 t) (iblk1 V c 1 t) _ _ _ (ix2 p q)
    = gconv (V c main_v31) (V c main_v18) (V c main_v6) (V c main_v14) (V c main_v7) (((cfg1.win 5).blk t).view.emb (ix2 p q))
  rw [hemb]
  unfold gconv
  exact conv_rows _ _ _ _ _ _ _ p ⟨_, hp⟩ q (fun c1 => rows_a V c t p c1 hp) (fun c1 => rows_h V c t p c1 hp)

/-- An index of the result is in point t's block iff its row is among the block's 5000 rows. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v32).slice (win1_5.rect t)).set ↔ _
  rw [View.set_slice_whole, Rect.mem_set_unit]
  exact Iff.rfl

/-- Row r of the result is written back by point r / 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx t
  refine ⟨t, flush1_5 t, ?_⟩
  rw [mem_blk]
  intro a
  match a with
  | ⟨0, _⟩ =>
    show win1_5.index t 0 * 5000 ≤ (i 0).val ∧ (i 0).val < win1_5.index t 0 * 5000 + 5000
    rw [e0, ht]; omega
  | ⟨1, _⟩ =>
    show win1_5.index t 1 * 128 ≤ (i 1).val ∧ (i 1).val < win1_5.index t 1 * 128 + 128
    rw [e1]; omega

/-- The result array after the launch is the layer of the arrays the launch found. -/
theorem final (c : Dev nD) : (dat1 V c).arrAt 5 cfg1.N
    = gconv (V c main_v31) (V c main_v18) (V c main_v6) (V c main_v14) (V c main_v7) :=
  (dat1 V c).arrAt_eq_of_cover 5 _ (fun t _ => flushed_eq V c t) cover

end Cert.KernelIdeal.GraphConv

end
-- ==== Proof.Heads.lean ====
/-
  The third launch (the second graph-convolution layer and the two linear heads), from blocks to the whole arrays.

  The launch walks 10 blocks of 5000 rows. At block t the body loads rows 5000·t … of the aggregated messages and of
  the node features and the whole of every weight matrix and bias row, and writes back the same rows of the two
  results: each head of the hidden layer. Every entry of a head depends on one row of the hidden layer, and that row on
  one row of the messages and of the features, so what block t writes back is block t of the head of the WHOLE arrays;
  the 10 blocks tile the 50000 rows.
-/
import proofs.«115264_j47579647705647_2_alg».proof.Proof.Gen.KernelIdeal.Frame
import proofs.«115264_j47579647705647_2_alg».proof.Proof.LibGraphLayers
import proofs.«115264_j47579647705647_2_alg».proof.Proof.Payloads
import Idealize.ShloMosaic.Lib.Pipeline.Value
import Idealize.ShloMosaic.Lib.Tactic

set_option maxRecDepth 16384

noncomputable section

namespace Cert.KernelIdeal.Heads

open Cert.KernelIdeal Cert.KernelIdeal.Gen Cert.KernelIdeal.Payloads
open Idealize.ShloMosaic Idealize.ShloMosaic.TcCoe Idealize.SL.Sem Idealize.ShloMosaic.ValueIdx
open Idealize.ShloMosaic.Pipeline (Dat)
open Cert.Lib.SplitLayers Cert.Lib.GraphLayers

variable (V : (c : Dev nD) → (b : Ref sig .tc) → Buf (Elt Ideal) ((c : Thread nD τ).loc b))

theorem hz : (![0, 0] : Fin 2 → Nat) = fun _ => 0 := funext fun a => by fin_cases a <;> rfl

/-- A linear head of the graph-convolution layer of whole arrays: 50000 rows of 128 features to 32. -/
def headOf (a h : S50000x128.Idx → EReal) (r : S128x128.Idx → EReal) (b : S1x128.Idx → EReal)
    (q : S128x128.Idx → EReal) (w : S128x32.Idx → EReal) (bw : S1x32.Idx → EReal) : S50000x32.Idx → EReal :=
  head (conv a h r q b) w bw

/-- The index maps, decided over the 10 points: the windows over the 50000 rows move with the point, every other
    window stays at block (0, 0). -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0
    ∧ win2_10.index t (0 : Fin 2) = t.val ∧ win2_10.index t (1 : Fin 2) = 0 :=
  (by decide +kernel : ∀ t : Fin grid2.N, _)

/-- The messages' block at point t is rows 5000·t … of the aggregated messages. -/
theorem rows_a (c : Dev nD) (t : Fin cfg2.N) (p : Fin 5000) (q : Fin 128) (hp : t.val * 5000 + p.val < 50000) :
    (iblk2 V c 0 t : Vec Ideal S5000x128 .f32) (ix2 p q)
      = (V c main_v45 : S50000x128.Idx → EReal) (ix2 (⟨t.val * 5000 + p.val, hp⟩ : Fin 50000) q) := by
  obtain ⟨e0, e1, -⟩ := idx t
  unfold iblk2
  rw [View.read_apply]
  show V c main_v45 _ = V c main_v45 _
  congr 1
  funext a
  apply Fin.ext
  match a with
  | ⟨0, _⟩ => show win2_0.index t 0 * 5000 + 1 * p.val = t.val * 5000 + p.val; rw [e0]; omega
  | ⟨1, _⟩ => show win2_0.index t 1 * 128 + 1 * q.val = q.val; rw [e1]; omega

/-- The features' block at point t is rows 5000·t … of the node features. -/
theorem rows_h (c : Dev nD) (t : Fin cfg2.N) (p : Fin 5000) (q : Fin 128) (hp : t.val * 5000 + p.val < 50000) :
    (iblk2 V c 1 t : Vec Ideal S5000x128 .f32) (ix2 p q)
      = (V c main_v32 : S50000x128.Idx → EReal) (ix2 (⟨t.val * 5000 + p.val, hp⟩ : Fin 50000) q) := by
  obtain ⟨-, -, e0, e1, -⟩ := idx t
  unfold iblk2
  rw [View.read_apply]
  show V c main_v32 _ = V c main_v32 _
  congr 1
  funext a
  apply Fin.ext
  match a with
  | ⟨0, _⟩ => show win2_1.index t 0 * 5000 + 1 * p.val = t.val * 5000 + p.val; rw [e0]; omega
  | ⟨1, _⟩ => show win2_1.index t 1 * 128 + 1 * q.val = q.val; rw [e1]; omega

/-- The messages' weight matrix is loaded whole at every point. -/
theorem whole_r (c : Dev nD) (t : Fin cfg2.N) :
    (iblk2 V c 2 t : Vec Ideal S128x128 .f32) = (V c main_v8 : S128x128.Idx → EReal) := by
  obtain ⟨-, -, -, -, e0, e1, -⟩ := idx t
  funext y
  unfold iblk2
  rw [View.read_apply]
  show V c main_v8 _ = V c main_v8 y
  congr 1
  funext a
  apply Fin.ext
  match a with
  | ⟨0, _⟩ => show win2_2.index t 0 * 128 + 1 * (y 0).val = (y 0).val; rw [e0]; omega
  | ⟨1, _⟩ => show win2_2.index t 1 * 128 + 1 * (y 1).val = (y 1).val; rw [e1]; omega

/-- The layer's bias row is loaded whole at every point. -/
theorem whole_b (c : Dev nD) (t : Fin cfg2.N) :
    (iblk2 V c 3 t : Vec Ideal S1x128 .f32) = (V c main_v15 : S1x128.Idx → EReal) := by
  obtain ⟨-, -, -, -, -, -, e0, e1, -⟩ := idx t
  funext y
  unfold iblk2
  rw [View.read_apply]
  show V c main_v15 _ = V c main_v15 y
  congr 1
  funext a
  apply Fin.ext
  match a with
  | ⟨0, _⟩ => show win2_3.index t 0 * 1 + 1 * (y 0).val = (y 0).val; rw [e0]; omega
  | ⟨1, _⟩ => show win2_3.index t 1 * 128 + 1 * (y 1).val = (y 1).val; rw [e1]; omega

/-- The features' weight matrix is loaded whole at every point. -/
theorem whole_q (c : Dev nD) (t : Fin cfg2.N) :
    (iblk2 V c 4 t : Vec Ideal S128x128 .f32) = (V c main_v9 : S128x128.Idx → EReal) := by
  obtain ⟨-, -, -, -, -, -, -, -, e0, e1, -⟩ := idx t
  funext y
  unfold iblk2
  rw [View.read_apply]
  show V c main_v9 _ = V c main_v9 y
  congr 1
  funext a
  apply Fin.ext
  match a with
  | ⟨0, _⟩ => show win2_4.index t 0 * 128 + 1 * (y 0).val = (y 0).val; rw [e0]; omega
  | ⟨1, _⟩ => show win2_4.index t 1 * 128 + 1 * (y 1).val = (y 1).val; rw [e1]; omega

/-- The first head's weight matrix is loaded whole at every point. -/
theorem whole_w (c : Dev nD) (t : Fin cfg2.N) :
    (iblk2 V c 5 t : Vec Ideal S128x32 .f32) = (V c main_v10 : S128x32.Idx → EReal) := by
  obtain ⟨-, -, -, -, -, -, -, -, -, -, e0, e1, -⟩ := idx t
  funext y
  unfold iblk2
  rw [View.read_apply]
  show V c main_v10 _ = V c main_v10 y
  congr 1
  funext a
  apply Fin.ext
  match a with
  | ⟨0, _⟩ => show win2_5.index t 0 * 128 + 1 * (y 0).val = (y 0).val; rw [e0]; omega
  | ⟨1, _⟩ => show win2_5.index t 1 * 32 + 1 * (y 1).val = (y 1).val; rw [e1]; omega

/-- The first head's bias row is loaded whole at every point. -/
theorem whole_bw (c : Dev nD) (t : Fin cfg2.N) :
    (iblk2 V c 6 t : Vec Ideal S1x32 .f32) = (V c main_v16 : S1x32.Idx → EReal) := by
  obtain ⟨-, -, -, -, -, -, -, -, -, -, -, -, e0, e1, -⟩ := idx t
  funext y
  unfold iblk2
  rw [View.read_apply]
  show V c main_v16 _ = V c main_v16 y
  congr 1
  funext a
  apply Fin.ext
  match a with
  | ⟨0, _⟩ => show win2_6.index t 0 * 1 + 1 * (y 0).val = (y 0).val; rw [e0]; omega
  | ⟨1, _⟩ => show win2_6.index t 1 * 32 + 1 * (y 1).val = (y 1).val; rw [e1]; omega

/-- The second head's weight matrix is loaded whole at every point. -/
theorem whole_w' (c : Dev nD) (t : Fin cfg2.N) :
    (iblk2 V c 7 t : Vec Ideal S128x32 .f32) = (V c main_v11 : S128x32.Idx → EReal) := by
  obtain ⟨-, -, -, -, -, -, -, -, -, -, -, -, -, -, e0, e1, -⟩ := idx t
  funext y
  unfold iblk2
  rw [View.read_apply]
  show V c main_v11 _ = V c main_v11 y
  congr 1
  funext a
  apply Fin.ext
  match a with
  | ⟨0, _⟩ => show win2_7.index t 0 * 128 + 1 * (y 0).val = (y 0).val; rw [e0]; omega
  | ⟨1, _⟩ => show win2_7.index t 1 * 32 + 1 * (y 1).val = (y 1).val; rw [e1]; omega

/-- The second head's bias row is loaded whole at every point. -/
theorem whole_bw' (c : Dev nD) (t : Fin cfg2.N) :
    (iblk2 V c 8 t : Vec Ideal S1x32 .f32) = (V c main_v17 : S1x32.Idx → EReal) := by
  obtain ⟨-, -, -, -, -, -, -, -, -, -, -, -, -, -, -, -, e0, e1, -⟩ := idx t
  funext y
  unfold iblk2
  rw [View.read_apply]
  show V c main_v17 _ = V c main_v17 y
  congr 1
  funext a
  apply Fin.ext
  match a with
  | ⟨0, _⟩ => show win2_8.index t 0 * 1 + 1 * (y 0).val = (y 0).val; rw [e0]; omega
  | ⟨1, _⟩ => show win2_8.index t 1 * 32 + 1 * (y 1).val = (y 1).val; rw [e1]; omega

/-- What point t writes back into the first result is block t of the first head of the whole arrays. -/
theorem flushed_eq (c : Dev nD) (t : Fin cfg2.N) :
    (dat2 V c).flushed 9 t = ((cfg2.win 9).blk t).view.read (Elt Ideal) (headOf (V c main_v45) (V c main_v32) (V c main_v8) (V c main_v15) (V c main_v9) (V c main_v10) (V c main_v16)) := by
  show (cfg2.win 9).cut (grid2.coords t) ((dat2 V c).after 9 t) = _
  rw [after2_9]
  unfold out2_9
  rw [View.canon_unit_zero hz]
  simp only [View.ld_unit_zero (S := S5000x128) hz, View.ld_unit_zero (S := S128x128) hz, View.ld_unit_zero (S := S1x128) hz, View.ld_unit_zero (S := S128x32) hz, View.ld_unit_zero (S := S1x32) hz]
  rw [head_block, whole_r V c t, whole_b V c t, whole_q V c t, whole_w V c t, whole_bw V c t]
  funext j
  obtain ⟨p, q, rfl⟩ : ∃ (p : Fin 5000) (q : Fin 32), j = ix2 p q := ⟨j 0, j 1, eq_ix2 j⟩
  have hN : cfg2.N = 10 := N_2
  have hp : t.val * 5000 + p.val < 50000 := by have h1 := t.isLt; have h2 := p.isLt; omega
  have hemb : ((cfg2.win 9).blk t).view.emb (ix2 p q) = ix2 (⟨t.val * 5000 + p.val, hp⟩ : Fin 50000) q := by
    obtain ⟨-, -, -, -, -, -, -, -, -, -, -, -, -, -, -, -, -, -, e0, e1, -⟩ := idx t
    funext a
    apply Fin.ext
    match a with
    | ⟨0, _⟩ => show win2_9.index t 0 * 5000 + 1 * p.val = t.val * 5000 + p.val; rw [e0]; omega
    | ⟨1, _⟩ => show win2_9.index t 1 * 32 + 1 * q.val = q.val; rw [e1]; omega
  show head (conv (iblk2 V c 0 t) (iblk2 V c 1 t) _ _ _) _ _ (ix2 p q)
    = headOf (V c main_v45) (V c main_v32) (V c main_v8) (V c main_v15) (V c main_v9) (V c main_v10) (V c main_v16) (((cfg2.win 9).blk t).view.emb (ix2 p q))
  rw [hemb]
  unfold headOf
  exact head_rows _ _ _ _ p ⟨_, hp⟩ q fun c0 => conv_rows _ _ _ _ _ _ _ p ⟨_, hp⟩ c0 (fun c1 => rows_a V c t p c1 hp) (fun c1 => rows_h V c t p c1 hp)

/-- An index of the first result is in point t's block iff its row is among the block's 5000 rows. -/
theorem mem_blk (t : Fin cfg2.N) (i : S50000x32.Idx) :
    i ∈ ((cfg2.win 9).blk t).view.set ↔ ∀ a : Fin 2, win2_9.index t a * S5000x32.size a ≤ (i a).val
      ∧ (i a).val < win2_9.index t a * S5000x32.size a + S5000x32.size a := by
  show i ∈ ((View.whole main_v46_0).slice (win2_9.rect t)).set ↔ _
  rw [View.set_slice_whole, Rect.mem_set_unit]
  exact Iff.rfl

/-- Row r of the first result is written back by point r / 5000. -/
theorem cover (i : S50000x32.Idx) :
    ∃ t : Fin cfg2.N, (cfg2.win 9).flush t = true ∧ i ∈ ((cfg2.win 9).blk t).view.set := by
  have hi0 : (i 0).val < 50000 := (i 0).isLt
  have hi1 : (i 1).val < 32 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, -, -, -, -, -, -, e0, e1, -⟩ := idx t
  refine ⟨t, flush2_9 t, ?_⟩
  rw [mem_blk]
  intro a
  match a with
  | ⟨0, _⟩ =>
    show win2_9.index t 0 * 5000 ≤ (i 0).val ∧ (i 0).val < win2_9.index t 0 * 5000 + 5000
    rw [e0, ht]; omega
  | ⟨1, _⟩ =>
    show win2_9.index t 1 * 32 ≤ (i 1).val ∧ (i 1).val < win2_9.index t 1 * 32 + 32
    rw [e1]; omega

/-- The first result array after the launch is the first head of the arrays the launch found. -/
theorem final (c : Dev nD) : (dat2 V c).arrAt 9 cfg2.N
    = headOf (V c main_v45) (V c main_v32) (V c main_v8) (V c main_v15) (V c main_v9) (V c main_v10) (V c main_v16) :=
  (dat2 V c).arrAt_eq_of_cover 9 _ (fun t _ => flushed_eq V c t) cover

/-- What point t writes back into the second result is block t of the second head of the whole arrays. -/
theorem flushed_eq' (c : Dev nD) (t : Fin cfg2.N) :
    (dat2 V c).flushed 10 t = ((cfg2.win 10).blk t).view.read (Elt Ideal) (headOf (V c main_v45) (V c main_v32) (V c main_v8) (V c main_v15) (V c main_v9) (V c main_v11) (V c main_v17)) := by
  show (cfg2.win 10).cut (grid2.coords t) ((dat2 V c).after 10 t) = _
  rw [after2_10]
  unfold out2_10
  rw [View.canon_unit_zero hz]
  simp only [View.ld_unit_zero (S := S5000x128) hz, View.ld_unit_zero (S := S128x128) hz, View.ld_unit_zero (S := S1x128) hz, View.ld_unit_zero (S := S128x32) hz, View.ld_unit_zero (S := S1x32) hz]
  rw [head_block', whole_r V c t, whole_b V c t, whole_q V c t, whole_w' V c t, whole_bw' V c t]
  funext j
  obtain ⟨p, q, rfl⟩ : ∃ (p : Fin 5000) (q : Fin 32), j = ix2 p q := ⟨j 0, j 1, eq_ix2 j⟩
  have hN : cfg2.N = 10 := N_2
  have hp : t.val * 5000 + p.val < 50000 := by have h1 := t.isLt; have h2 := p.isLt; omega
  have hemb : ((cfg2.win 10).blk t).view.emb (ix2 p q) = ix2 (⟨t.val * 5000 + p.val, hp⟩ : Fin 50000) q := by
    obtain ⟨-, -, -, -, -, -, -, -, -, -, -, -, -, -, -, -, -, -, -, -, e0, e1⟩ := idx t
    funext a
    apply Fin.ext
    match a with
    | ⟨0, _⟩ => show win2_10.index t 0 * 5000 + 1 * p.val = t.val * 5000 + p.val; rw [e0]; omega
    | ⟨1, _⟩ => show win2_10.index t 1 * 32 + 1 * q.val = q.val; rw [e1]; omega
  show head (conv (iblk2 V c 0 t) (iblk2 V c 1 t) _ _ _) _ _ (ix2 p q)
    = headOf (V c main_v45) (V c main_v32) (V c main_v8) (V c main_v15) (V c main_v9) (V c main_v11) (V c main_v17) (((cfg2.win 10).blk t).view.emb (ix2 p q))
  rw [hemb]
  unfold headOf
  exact head_rows _ _ _ _ p ⟨_, hp⟩ q fun c0 => conv_rows _ _ _ _ _ _ _ p ⟨_, hp⟩ c0 (fun c1 => rows_a V c t p c1 hp) (fun c1 => rows_h V c t p c1 hp)

/-- An index of the second result is in point t's block iff its row is among the block's 5000 rows. -/
theorem mem_blk' (t : Fin cfg2.N) (i : S50000x32.Idx) :
    i ∈ ((cfg2.win 10).blk t).view.set ↔ ∀ a : Fin 2, win2_10.index t a * S5000x32.size a ≤ (i a).val
      ∧ (i a).val < win2_10.index t a * S5000x32.size a + S5000x32.size a := by
  show i ∈ ((View.whole main_v46_1).slice (win2_10.rect t)).set ↔ _
  rw [View.set_slice_whole, Rect.mem_set_unit]
  exact Iff.rfl

/-- Row r of the second result is written back by point r / 5000. -/
theorem cover' (i : S50000x32.Idx) :
    ∃ t : Fin cfg2.N, (cfg2.win 10).flush t = true ∧ i ∈ ((cfg2.win 10).blk t).view.set := by
  have hi0 : (i 0).val < 50000 := (i 0).isLt
  have hi1 : (i 1).val < 32 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, -, -, -, -, -, -, -, -, -, -, e0, e1⟩ := idx t
  refine ⟨t, flush2_10 t, ?_⟩
  rw [mem_blk']
  intro a
  match a with
  | ⟨0, _⟩ =>
    show win2_10.index t 0 * 5000 ≤ (i 0).val ∧ (i 0).val < win2_10.index t 0 * 5000 + 5000
    rw [e0, ht]; omega
  | ⟨1, _⟩ =>
    show win2_10.index t 1 * 32 ≤ (i 1).val ∧ (i 1).val < win2_10.index t 1 * 32 + 32
    rw [e1]; omega

/-- The second result array after the launch is the second head of the arrays the launch found. -/
theorem final' (c : Dev nD) : (dat2 V c).arrAt 10 cfg2.N
    = headOf (V c main_v45) (V c main_v32) (V c main_v8) (V c main_v15) (V c main_v9) (V c main_v11) (V c main_v17) :=
  (dat2 V c).arrAt_eq_of_cover 10 _ (fun t _ => flushed_eq' V c t) cover'

end Cert.KernelIdeal.Heads

end
-- ==== Proof.Fold.lean ====
/-
  The idealized kernel program's two results as functions of its arguments.

  @main computes, on the host, the transposed weight matrices, the bias vectors re-shaped into rows (a vector re-shaped
  into a one-row array is that vector as a row) and the two rows of the edge index; then
  the first launch leaves the perceptron of the node features; a host stretch gathers the rows of that array at the
  edges' sources, scales each by its edge weight and adds them up at the edges' destinations; the second launch leaves
  the graph-convolution layer of those aggregated messages and the features; a second host stretch aggregates again; the
  third launch leaves the two linear heads of the second layer. Here the contents of every buffer a launch or a
  stretch reads are followed boundary by boundary from the launch memory: a buffer that a segment does not write keeps
  its contents, a launch's result array holds the layer function of what the launch found, and a stretch's result is its
  operations' term. The aggregation is kept as ONE function of the node features, the same in both programs.
-/
import proofs.«115264_j47579647705647_2_alg».proof.Proof.Gen.KernelIdeal.Frame
import proofs.«115264_j47579647705647_2_alg».proof.Proof.LibGraphLayers
import proofs.«115264_j47579647705647_2_alg».proof.Proof.Perceptron
import proofs.«115264_j47579647705647_2_alg».proof.Proof.GraphConv
import proofs.«115264_j47579647705647_2_alg».proof.Proof.Heads
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)
open Cert.Lib.GraphLayers Cert.Lib.RowVector

/-! ## Message passing -/

/-- The messages into every node, added up: the rows of `h` at the edges' sources (a negative source counted from the
    end, as the program spells it), each scaled by its edge's weight, scatter-added at the edges' destinations into
    zeros. -/
def aggregate (src dst : (⟨S600000, .i32⟩ : BufTy).Contents (Elt Ideal)) (ew : (⟨S600000, .f32⟩ : BufTy).Contents (Elt Ideal))
    (h : (⟨S50000x128, .f32⟩ : BufTy).Contents (Elt Ideal)) : (⟨S50000x128, .f32⟩ : BufTy).Contents (Elt Ideal) :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (mulf (Host.gather gather_S50000x128_S600000x1_S600000x128_1_0_n_n_0_1_1128 h
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src)))
      (broadcastInDim S600000x128 ![0, 1] bcast_S600000x1_S600000x128_0_1
        (broadcastInDim S600000x1 ![0] bcast_S600000_S600000x1_0 ew)))

/-- The first host stretch between launches writes the aggregated messages of the first launch's result. -/
theorem stretch1 (W : Valuation τ sig (Elt Ideal)) :
    StableHlo.after hostOps1 W (Proc.devRef .tc main_v31)
      = aggregate (W (Proc.devRef .tc main_v1)) (W (Proc.devRef .tc main_v3)) (W (Proc.devRef .tc main_arg2))
          (W (Proc.devRef .tc main_v18)) := by
  after_results_simp <;> rfl

/-- The second host stretch writes the aggregated messages of the second launch's result. -/
theorem stretch2 (W : Valuation τ sig (Elt Ideal)) :
    StableHlo.after hostOps2 W (Proc.devRef .tc main_v45)
      = aggregate (W (Proc.devRef .tc main_v1)) (W (Proc.devRef .tc main_v3)) (W (Proc.devRef .tc main_arg2))
          (W (Proc.devRef .tc main_v32)) := by
  after_results_simp <;> rfl

variable (m : (ℓ : Loc nD τ sig) → Buf (Elt Ideal) ℓ) (ρ : Dev nD → PrngReg) (c : Dev nD)

/-! ## What the host prepares before the first launch -/

/-- The node features. -/
def feats : Buf (Elt Ideal) ((c.tc : Thread nD τ).loc main_arg0) :=
  (m ((c.tc : Thread nD τ).loc main_arg0))

/-- The edge weights. -/
def edgeW : Buf (Elt Ideal) ((c.tc : Thread nD τ).loc main_arg2) :=
  (m ((c.tc : Thread nD τ).loc main_arg2))

/-- The edges' source nodes: row 0 of the edge index. -/
def src : Buf (Elt Ideal) ((c.tc : Thread nD τ).loc main_v1) :=
  shapeCast _ (extractStridedSlice S1x600000 ![0, 0] (m ((c.tc : Thread nD τ).loc main_arg1)) slices_S2x600000_S1x600000_0_0) shapeCasts_S1x600000_S600000

/-- The edges' destination nodes: row 1 of the edge index. -/
def dst : Buf (Elt Ideal) ((c.tc : Thread nD τ).loc main_v3) :=
  shapeCast _ (extractStridedSlice S1x600000 ![1, 0] (m ((c.tc : Thread nD τ).loc main_arg1)) slices_S2x600000_S1x600000_1_0) shapeCasts_S1x600000_S600000

/-- The perceptron's first weight matrix, transposed. -/
def w1 : Buf (Elt Ideal) ((c.tc : Thread nD τ).loc main_v4) :=
  transpose S512x128 [1, 0] (m ((c.tc : Thread nD τ).loc main_arg3)) transposes_S128x512_S512x128_1_0

/-- The perceptron's second weight matrix, transposed. -/
def w2 : Buf (Elt Ideal) ((c.tc : Thread nD τ).loc main_v5) :=
  transpose S128x128 [1, 0] (m ((c.tc : Thread nD τ).loc main_arg5)) transposes_S128x128_S128x128_1_0

/-- The first layer's weight matrix on the messages, transposed. -/
def r1 : Buf (Elt Ideal) ((c.tc : Thread nD τ).loc main_v6) :=
  transpose S128x128 [1, 0] (m ((c.tc : Thread nD τ).loc main_arg7)) transposes_S128x128_S128x128_1_0

/-- The first layer's weight matrix on the features, transposed. -/
def q1 : Buf (Elt Ideal) ((c.tc : Thread nD τ).loc main_v7) :=
  transpose S128x128 [1, 0] (m ((c.tc : Thread nD τ).loc main_arg9)) transposes_S128x128_S128x128_1_0

/-- The second layer's weight matrix on the messages, transposed. -/
def r2 : Buf (Elt Ideal) ((c.tc : Thread nD τ).loc main_v8) :=
  transpose S128x128 [1, 0] (m ((c.tc : Thread nD τ).loc main_arg10)) transposes_S128x128_S128x128_1_0

/-- The second layer's weight matrix on the features, transposed. -/
def q2 : Buf (Elt Ideal) ((c.tc : Thread nD τ).loc main_v9) :=
  transpose S128x128 [1, 0] (m ((c.tc : Thread nD τ).loc main_arg12)) transposes_S128x128_S128x128_1_0

/-- The first head's weight matrix, transposed. -/
def wmu : Buf (Elt Ideal) ((c.tc : Thread nD τ).loc main_v10) :=
  transpose S128x32 [1, 0] (m ((c.tc : Thread nD τ).loc main_arg13)) transposes_S32x128_S128x32_1_0

/-- The second head's weight matrix, transposed. -/
def wlv : Buf (Elt Ideal) ((c.tc : Thread nD τ).loc main_v11) :=
  transpose S128x32 [1, 0] (m ((c.tc : Thread nD τ).loc main_arg15)) transposes_S32x128_S128x32_1_0

/-- The perceptron's first bias, as a row. -/
def b1 : Buf (Elt Ideal) ((c.tc : Thread nD τ).loc main_v12) :=
  asRow (α := EReal) (n := 128) (m ((c.tc : Thread nD τ).loc main_arg4))

/-- The perceptron's second bias, as a row. -/
def b2 : Buf (Elt Ideal) ((c.tc : Thread nD τ).loc main_v13) :=
  asRow (α := EReal) (n := 128) (m ((c.tc : Thread nD τ).loc main_arg6))

/-- The first layer's bias, as a row. -/
def c1 : Buf (Elt Ideal) ((c.tc : Thread nD τ).loc main_v14) :=
  asRow (α := EReal) (n := 128) (m ((c.tc : Thread nD τ).loc main_arg8))

/-- The second layer's bias, as a row. -/
def c2 : Buf (Elt Ideal) ((c.tc : Thread nD τ).loc main_v15) :=
  asRow (α := EReal) (n := 128) (m ((c.tc : Thread nD τ).loc main_arg11))

/-- The first head's bias, as a row. -/
def bmu : Buf (Elt Ideal) ((c.tc : Thread nD τ).loc main_v16) :=
  asRow (α := EReal) (n := 32) (m ((c.tc : Thread nD τ).loc main_arg14))

/-- The second head's bias, as a row. -/
def blv : Buf (Elt Ideal) ((c.tc : Thread nD τ).loc main_v17) :=
  asRow (α := EReal) (n := 32) (m ((c.tc : Thread nD τ).loc main_arg16))

/-! ## The layers' results -/

/-- The perceptron of the node features. -/
def h0 : Buf (Elt Ideal) ((c.tc : Thread nD τ).loc main_v18) :=
  Perceptron.mlp (feats m c) (w1 m c) (b1 m c) (w2 m c) (b2 m c)
/-- The messages of the first round. -/
def a1 : Buf (Elt Ideal) ((c.tc : Thread nD τ).loc main_v31) := aggregate (src m c) (dst m c) (edgeW m c) (h0 m c)
/-- The first graph-convolution layer. -/
def h1 : Buf (Elt Ideal) ((c.tc : Thread nD τ).loc main_v32) :=
  GraphConv.gconv (a1 m c) (h0 m c) (r1 m c) (c1 m c) (q1 m c)
/-- The messages of the second round. -/
def a2 : Buf (Elt Ideal) ((c.tc : Thread nD τ).loc main_v45) := aggregate (src m c) (dst m c) (edgeW m c) (h1 m c)
/-- The first head of the second graph-convolution layer. -/
def mu : Buf (Elt Ideal) ((c.tc : Thread nD τ).loc main_v46_0) :=
  Heads.headOf (a2 m c) (h1 m c) (r2 m c) (c2 m c) (q2 m c) (wmu m c) (bmu m c)
/-- The second head of the second graph-convolution layer. -/
def logvar : Buf (Elt Ideal) ((c.tc : Thread nD τ).loc main_v46_1) :=
  Heads.headOf (a2 m c) (h1 m c) (r2 m c) (c2 m c) (q2 m c) (wlv m c) (blv m c)

/-! ## At the first launch's entry: the host's first stretch, read -/

theorem at1_arg0 : V1 m ρ c main_arg0 = feats m c :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps0 (W0 m ρ c) (Proc.devRef .tc main_arg0) = W0 m ρ c (Proc.devRef .tc main_arg0))

theorem at1_arg2 : V1 m ρ c main_arg2 = edgeW m c :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps0 (W0 m ρ c) (Proc.devRef .tc main_arg2) = W0 m ρ c (Proc.devRef .tc main_arg2))

theorem at1_v1 : V1 m ρ c main_v1 = src m c := by
  show StableHlo.after hostOps0 (W0 m ρ c) (Proc.devRef .tc main_v1) = _
  after_results
  rfl

theorem at1_v3 : V1 m ρ c main_v3 = dst m c := by
  show StableHlo.after hostOps0 (W0 m ρ c) (Proc.devRef .tc main_v3) = _
  after_results
  rfl

theorem at1_v4 : V1 m ρ c main_v4 = w1 m c := by
  show StableHlo.after hostOps0 (W0 m ρ c) (Proc.devRef .tc main_v4) = _
  after_results
  rfl

theorem at1_v5 : V1 m ρ c main_v5 = w2 m c := by
  show StableHlo.after hostOps0 (W0 m ρ c) (Proc.devRef .tc main_v5) = _
  after_results
  rfl

theorem at1_v6 : V1 m ρ c main_v6 = r1 m c := by
  show StableHlo.after hostOps0 (W0 m ρ c) (Proc.devRef .tc main_v6) = _
  after_results
  rfl

theorem at1_v7 : V1 m ρ c main_v7 = q1 m c := by
  show StableHlo.after hostOps0 (W0 m ρ c) (Proc.devRef .tc main_v7) = _
  after_results
  rfl

theorem at1_v8 : V1 m ρ c main_v8 = r2 m c := by
  show StableHlo.after hostOps0 (W0 m ρ c) (Proc.devRef .tc main_v8) = _
  after_results
  rfl

theorem at1_v9 : V1 m ρ c main_v9 = q2 m c := by
  show StableHlo.after hostOps0 (W0 m ρ c) (Proc.devRef .tc main_v9) = _
  after_results
  rfl

theorem at1_v10 : V1 m ρ c main_v10 = wmu m c := by
  show StableHlo.after hostOps0 (W0 m ρ c) (Proc.devRef .tc main_v10) = _
  after_results
  rfl

theorem at1_v11 : V1 m ρ c main_v11 = wlv m c := by
  show StableHlo.after hostOps0 (W0 m ρ c) (Proc.devRef .tc main_v11) = _
  after_results
  rfl

theorem at1_v12 : V1 m ρ c main_v12 = b1 m c := by
  show StableHlo.after hostOps0 (W0 m ρ c) (Proc.devRef .tc main_v12) = _
  after_results
  exact shapeCast_eq_asRow _ _

theorem at1_v13 : V1 m ρ c main_v13 = b2 m c := by
  show StableHlo.after hostOps0 (W0 m ρ c) (Proc.devRef .tc main_v13) = _
  after_results
  exact shapeCast_eq_asRow _ _

theorem at1_v14 : V1 m ρ c main_v14 = c1 m c := by
  show StableHlo.after hostOps0 (W0 m ρ c) (Proc.devRef .tc main_v14) = _
  after_results
  exact shapeCast_eq_asRow _ _

theorem at1_v15 : V1 m ρ c main_v15 = c2 m c := by
  show StableHlo.after hostOps0 (W0 m ρ c) (Proc.devRef .tc main_v15) = _
  after_results
  exact shapeCast_eq_asRow _ _

theorem at1_v16 : V1 m ρ c main_v16 = bmu m c := by
  show StableHlo.after hostOps0 (W0 m ρ c) (Proc.devRef .tc main_v16) = _
  after_results
  exact shapeCast_eq_asRow _ _

theorem at1_v17 : V1 m ρ c main_v17 = blv m c := by
  show StableHlo.after hostOps0 (W0 m ρ c) (Proc.devRef .tc main_v17) = _
  after_results
  exact shapeCast_eq_asRow _ _

/-! ## At the first launch's exit -/

theorem at2_v18 : V2 m ρ c main_v18 = h0 m c := by
  refine (W2_arr m ρ c 5).trans ((Perceptron.final (V1 m ρ) c).trans ?_)
  rw [at1_arg0, at1_v4, at1_v12, at1_v5, at1_v13]
  rfl
theorem at2_arg2 : V2 m ρ c main_arg2 = edgeW m c := (W2_of_ne m ρ c main_arg2 (by decide)).trans (at1_arg2 m ρ c)
theorem at2_v1 : V2 m ρ c main_v1 = src m c := (W2_of_ne m ρ c main_v1 (by decide)).trans (at1_v1 m ρ c)
theorem at2_v3 : V2 m ρ c main_v3 = dst m c := (W2_of_ne m ρ c main_v3 (by decide)).trans (at1_v3 m ρ c)
theorem at2_v6 : V2 m ρ c main_v6 = r1 m c := (W2_of_ne m ρ c main_v6 (by decide)).trans (at1_v6 m ρ c)
theorem at2_v7 : V2 m ρ c main_v7 = q1 m c := (W2_of_ne m ρ c main_v7 (by decide)).trans (at1_v7 m ρ c)
theorem at2_v8 : V2 m ρ c main_v8 = r2 m c := (W2_of_ne m ρ c main_v8 (by decide)).trans (at1_v8 m ρ c)
theorem at2_v9 : V2 m ρ c main_v9 = q2 m c := (W2_of_ne m ρ c main_v9 (by decide)).trans (at1_v9 m ρ c)
theorem at2_v10 : V2 m ρ c main_v10 = wmu m c := (W2_of_ne m ρ c main_v10 (by decide)).trans (at1_v10 m ρ c)
theorem at2_v11 : V2 m ρ c main_v11 = wlv m c := (W2_of_ne m ρ c main_v11 (by decide)).trans (at1_v11 m ρ c)
theorem at2_v14 : V2 m ρ c main_v14 = c1 m c := (W2_of_ne m ρ c main_v14 (by decide)).trans (at1_v14 m ρ c)
theorem at2_v15 : V2 m ρ c main_v15 = c2 m c := (W2_of_ne m ρ c main_v15 (by decide)).trans (at1_v15 m ρ c)
theorem at2_v16 : V2 m ρ c main_v16 = bmu m c := (W2_of_ne m ρ c main_v16 (by decide)).trans (at1_v16 m ρ c)
theorem at2_v17 : V2 m ρ c main_v17 = blv m c := (W2_of_ne m ρ c main_v17 (by decide)).trans (at1_v17 m ρ c)

/-! ## At the second launch's entry -/

theorem at3_v31 : V3 m ρ c main_v31 = a1 m c := by
  refine (stretch1 (W2 m ρ c)).trans ?_
  rw [show W2 m ρ c (Proc.devRef .tc main_v1) = src m c from at2_v1 m ρ c,
    show W2 m ρ c (Proc.devRef .tc main_v3) = dst m c from at2_v3 m ρ c,
    show W2 m ρ c (Proc.devRef .tc main_arg2) = edgeW m c from at2_arg2 m ρ c,
    show W2 m ρ c (Proc.devRef .tc main_v18) = h0 m c from at2_v18 m ρ c]
  rfl

theorem at3_v18 : V3 m ρ c main_v18 = h0 m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_v18) = W2 m ρ c (Proc.devRef .tc main_v18)).trans (at2_v18 m ρ c)

theorem at3_arg2 : V3 m ρ c main_arg2 = edgeW m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_arg2) = W2 m ρ c (Proc.devRef .tc main_arg2)).trans (at2_arg2 m ρ c)

theorem at3_v1 : V3 m ρ c main_v1 = src m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_v1) = W2 m ρ c (Proc.devRef .tc main_v1)).trans (at2_v1 m ρ c)

theorem at3_v3 : V3 m ρ c main_v3 = dst m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_v3) = W2 m ρ c (Proc.devRef .tc main_v3)).trans (at2_v3 m ρ c)

theorem at3_v6 : V3 m ρ c main_v6 = r1 m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_v6) = W2 m ρ c (Proc.devRef .tc main_v6)).trans (at2_v6 m ρ c)

theorem at3_v7 : V3 m ρ c main_v7 = q1 m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_v7) = W2 m ρ c (Proc.devRef .tc main_v7)).trans (at2_v7 m ρ c)

theorem at3_v8 : V3 m ρ c main_v8 = r2 m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_v8) = W2 m ρ c (Proc.devRef .tc main_v8)).trans (at2_v8 m ρ c)

theorem at3_v9 : V3 m ρ c main_v9 = q2 m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_v9) = W2 m ρ c (Proc.devRef .tc main_v9)).trans (at2_v9 m ρ c)

theorem at3_v10 : V3 m ρ c main_v10 = wmu m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_v10) = W2 m ρ c (Proc.devRef .tc main_v10)).trans (at2_v10 m ρ c)

theorem at3_v11 : V3 m ρ c main_v11 = wlv m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_v11) = W2 m ρ c (Proc.devRef .tc main_v11)).trans (at2_v11 m ρ c)

theorem at3_v14 : V3 m ρ c main_v14 = c1 m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_v14) = W2 m ρ c (Proc.devRef .tc main_v14)).trans (at2_v14 m ρ c)

theorem at3_v15 : V3 m ρ c main_v15 = c2 m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_v15) = W2 m ρ c (Proc.devRef .tc main_v15)).trans (at2_v15 m ρ c)

theorem at3_v16 : V3 m ρ c main_v16 = bmu m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_v16) = W2 m ρ c (Proc.devRef .tc main_v16)).trans (at2_v16 m ρ c)

theorem at3_v17 : V3 m ρ c main_v17 = blv m c :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps1 (W2 m ρ c) (Proc.devRef .tc main_v17) = W2 m ρ c (Proc.devRef .tc main_v17)).trans (at2_v17 m ρ c)

/-! ## At the second launch's exit -/

theorem at4_v32 : V4 m ρ c main_v32 = h1 m c := by
  refine (W4_arr m ρ c 5).trans ((GraphConv.final (V3 m ρ) c).trans ?_)
  rw [at3_v31, at3_v18, at3_v6, at3_v14, at3_v7]
  rfl
theorem at4_arg2 : V4 m ρ c main_arg2 = edgeW m c := (W4_of_ne m ρ c main_arg2 (by decide)).trans (at3_arg2 m ρ c)
theorem at4_v1 : V4 m ρ c main_v1 = src m c := (W4_of_ne m ρ c main_v1 (by decide)).trans (at3_v1 m ρ c)
theorem at4_v3 : V4 m ρ c main_v3 = dst m c := (W4_of_ne m ρ c main_v3 (by decide)).trans (at3_v3 m ρ c)
theorem at4_v8 : V4 m ρ c main_v8 = r2 m c := (W4_of_ne m ρ c main_v8 (by decide)).trans (at3_v8 m ρ c)
theorem at4_v9 : V4 m ρ c main_v9 = q2 m c := (W4_of_ne m ρ c main_v9 (by decide)).trans (at3_v9 m ρ c)
theorem at4_v10 : V4 m ρ c main_v10 = wmu m c := (W4_of_ne m ρ c main_v10 (by decide)).trans (at3_v10 m ρ c)
theorem at4_v11 : V4 m ρ c main_v11 = wlv m c := (W4_of_ne m ρ c main_v11 (by decide)).trans (at3_v11 m ρ c)
theorem at4_v15 : V4 m ρ c main_v15 = c2 m c := (W4_of_ne m ρ c main_v15 (by decide)).trans (at3_v15 m ρ c)
theorem at4_v16 : V4 m ρ c main_v16 = bmu m c := (W4_of_ne m ρ c main_v16 (by decide)).trans (at3_v16 m ρ c)
theorem at4_v17 : V4 m ρ c main_v17 = blv m c := (W4_of_ne m ρ c main_v17 (by decide)).trans (at3_v17 m ρ c)

/-! ## At the third launch's entry -/

theorem at5_v45 : V5 m ρ c main_v45 = a2 m c := by
  refine (stretch2 (W4 m ρ c)).trans ?_
  rw [show W4 m ρ c (Proc.devRef .tc main_v1) = src m c from at4_v1 m ρ c,
    show W4 m ρ c (Proc.devRef .tc main_v3) = dst m c from at4_v3 m ρ c,
    show W4 m ρ c (Proc.devRef .tc main_arg2) = edgeW m c from at4_arg2 m ρ c,
    show W4 m ρ c (Proc.devRef .tc main_v32) = h1 m c from at4_v32 m ρ c]
  rfl

theorem at5_v32 : V5 m ρ c main_v32 = h1 m c :=
  (StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps2 (W4 m ρ c) (Proc.devRef .tc main_v32) = W4 m ρ c (Proc.devRef .tc main_v32)).trans (at4_v32 m ρ c)

theorem at5_v8 : V5 m ρ c main_v8 = r2 m c :=
  (StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps2 (W4 m ρ c) (Proc.devRef .tc main_v8) = W4 m ρ c (Proc.devRef .tc main_v8)).trans (at4_v8 m ρ c)

theorem at5_v9 : V5 m ρ c main_v9 = q2 m c :=
  (StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps2 (W4 m ρ c) (Proc.devRef .tc main_v9) = W4 m ρ c (Proc.devRef .tc main_v9)).trans (at4_v9 m ρ c)

theorem at5_v10 : V5 m ρ c main_v10 = wmu m c :=
  (StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps2 (W4 m ρ c) (Proc.devRef .tc main_v10) = W4 m ρ c (Proc.devRef .tc main_v10)).trans (at4_v10 m ρ c)

theorem at5_v11 : V5 m ρ c main_v11 = wlv m c :=
  (StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps2 (W4 m ρ c) (Proc.devRef .tc main_v11) = W4 m ρ c (Proc.devRef .tc main_v11)).trans (at4_v11 m ρ c)

theorem at5_v15 : V5 m ρ c main_v15 = c2 m c :=
  (StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps2 (W4 m ρ c) (Proc.devRef .tc main_v15) = W4 m ρ c (Proc.devRef .tc main_v15)).trans (at4_v15 m ρ c)

theorem at5_v16 : V5 m ρ c main_v16 = bmu m c :=
  (StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps2 (W4 m ρ c) (Proc.devRef .tc main_v16) = W4 m ρ c (Proc.devRef .tc main_v16)).trans (at4_v16 m ρ c)

theorem at5_v17 : V5 m ρ c main_v17 = blv m c :=
  (StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) :
    StableHlo.after hostOps2 (W4 m ρ c) (Proc.devRef .tc main_v17) = W4 m ρ c (Proc.devRef .tc main_v17)).trans (at4_v17 m ρ c)

/-! ## At the return -/

/-- The first result array ends holding the first head. -/
theorem end_mu : W6 m ρ c (Proc.devRef .tc main_v46_0) = mu m c := by
  refine (W6_arr m ρ c 9).trans ((Heads.final (V5 m ρ) c).trans ?_)
  rw [at5_v45, at5_v32, at5_v8, at5_v15, at5_v9, at5_v10, at5_v16]
  rfl

/-- The second result array ends holding the second head. -/
theorem end_logvar : W6 m ρ c (Proc.devRef .tc main_v46_1) = logvar m c := by
  refine (W6_arr m ρ c 10).trans ((Heads.final' (V5 m ρ) c).trans ?_)
  rw [at5_v45, at5_v32, at5_v8, at5_v15, at5_v9, at5_v11, at5_v17]
  rfl

end Cert.KernelIdeal.Fold

end
-- ==== Proof.Bridge.lean ====
/-
  The reference's two results are the kernel program's, when the arguments agree.

  The reference computes, on the host alone, the same chain: two dense layers, then twice the aggregation of messages
  along the edges followed by a graph-convolution layer, then the two linear heads. Its transposed weight matrices are
  the kernel program's; its bias vectors are broadcast into rows where the kernel program re-shapes them into rows, and either
  way the row is the vector read along the columns; its products are the host's
  dot_general where the kernel's are products accumulated into zeros, both the same sums on the extended reals; and the
  aggregation between layers is operation for operation the same term. So each result is the same function of the
  arguments, with every addition in the same order on both sides.
-/
import proofs.«115264_j47579647705647_2_alg».proof.Proof.Gen.ReferenceIdeal.Run
import proofs.«115264_j47579647705647_2_alg».proof.Proof.LibGraphLayers
import proofs.«115264_j47579647705647_2_alg».proof.Proof.Fold

set_option maxRecDepth 16384

noncomputable section

namespace Cert.Proof.Bridge

open Idealize.ShloMosaic Idealize.ShloMosaic.TcCoe Idealize.SL.Sem
open Cert.Lib.SplitLayers Cert.Lib.RowVector Cert.Lib.GraphLayers

/-- A dense layer of the reference, 512 features to 128. -/
theorem dense1 (X : FVec Ideal Cert.ReferenceIdeal.S50000x512 .f32) (W : FVec Ideal Cert.ReferenceIdeal.S512x128 .f32) (bv : FVec Ideal Cert.ReferenceIdeal.S128 .f32) :
    maximumf (addf (Host.dotGeneral Cert.ReferenceIdeal.dot_S50000x512_S512x128_S50000x128_1_0_0_1_n_n none X W)
        (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 bv)))
      (broadcastInDim Cert.ReferenceIdeal.S50000x128 ![] Cert.ReferenceIdeal.Gen.bcast_S_S50000x128 (constant (F := Ideal) Cert.ReferenceIdeal.S_ .f32 0x00000000#32))
    = layer X W (asRow bv) :=
  host_layer Cert.ReferenceIdeal.dot_S50000x512_S512x128_S50000x128_1_0_0_1_n_n rfl rfl rfl rfl rfl rfl X W bv _ _ _

/-- A dense layer of the reference, 128 features to 128. -/
theorem dense2 (X : FVec Ideal Cert.ReferenceIdeal.S50000x128 .f32) (W : FVec Ideal Cert.ReferenceIdeal.S128x128 .f32) (bv : FVec Ideal Cert.ReferenceIdeal.S128 .f32) :
    maximumf (addf (Host.dotGeneral Cert.ReferenceIdeal.dot_S50000x128_S128x128_S50000x128_1_0_0_1_n_n none X W)
        (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 bv)))
      (broadcastInDim Cert.ReferenceIdeal.S50000x128 ![] Cert.ReferenceIdeal.Gen.bcast_S_S50000x128 (constant (F := Ideal) Cert.ReferenceIdeal.S_ .f32 0x00000000#32))
    = layer X W (asRow bv) :=
  host_layer Cert.ReferenceIdeal.dot_S50000x128_S128x128_S50000x128_1_0_0_1_n_n rfl rfl rfl rfl rfl rfl X W bv _ _ _

/-- A graph-convolution layer of the reference. -/
theorem gconv (A H : FVec Ideal Cert.ReferenceIdeal.S50000x128 .f32) (Rw Qw : FVec Ideal Cert.ReferenceIdeal.S128x128 .f32) (bv : FVec Ideal Cert.ReferenceIdeal.S128 .f32) :
    maximumf (addf (addf (Host.dotGeneral Cert.ReferenceIdeal.dot_S50000x128_S128x128_S50000x128_1_0_0_1_n_n none A Rw)
          (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 bv)))
        (Host.dotGeneral Cert.ReferenceIdeal.dot_S50000x128_S128x128_S50000x128_1_0_0_1_n_n none H Qw))
      (broadcastInDim Cert.ReferenceIdeal.S50000x128 ![] Cert.ReferenceIdeal.Gen.bcast_S_S50000x128 (constant (F := Ideal) Cert.ReferenceIdeal.S_ .f32 0x00000000#32))
    = conv A H Rw Qw (asRow bv) :=
  conv_host Cert.ReferenceIdeal.dot_S50000x128_S128x128_S50000x128_1_0_0_1_n_n rfl rfl rfl rfl rfl rfl A H Rw Qw bv _ _ _

/-- A linear head of the reference. -/
theorem lin (H : FVec Ideal Cert.ReferenceIdeal.S50000x128 .f32) (W : FVec Ideal Cert.ReferenceIdeal.S128x32 .f32) (bv : FVec Ideal Cert.ReferenceIdeal.S32 .f32) :
    addf (Host.dotGeneral Cert.ReferenceIdeal.dot_S50000x128_S128x32_S50000x32_1_0_0_1_n_n none H W)
      (broadcastInDim Cert.ReferenceIdeal.S50000x32 ![0, 1] Cert.ReferenceIdeal.Gen.bcast_S1x32_S50000x32_0_1 (broadcastInDim Cert.ReferenceIdeal.S1x32 ![1] Cert.ReferenceIdeal.Gen.bcast_S32_S1x32_1 bv))
    = head H W (asRow bv) :=
  head_host Cert.ReferenceIdeal.dot_S50000x128_S128x32_S50000x32_1_0_0_1_n_n rfl rfl rfl rfl rfl rfl H W bv _ _

/-- The reference's aggregation between layers is, operation for operation, the kernel program's. -/
theorem agg (src dst : (⟨Cert.KernelIdeal.S600000, .i32⟩ : BufTy).Contents (Elt Ideal)) (ew : (⟨Cert.KernelIdeal.S600000, .f32⟩ : BufTy).Contents (Elt Ideal))
    (h : (⟨Cert.KernelIdeal.S50000x128, .f32⟩ : BufTy).Contents (Elt Ideal)) :
    Host.scatterAdd Cert.ReferenceIdeal.scatter_S50000x128_S600000x1_S600000x128_1_0_0_1
      (broadcastInDim Cert.ReferenceIdeal.S50000x128 ![] Cert.ReferenceIdeal.Gen.bcast_S_S50000x128 (constant (F := Ideal) Cert.ReferenceIdeal.S_ .f32 0x00000000#32))
      (broadcastInDim Cert.ReferenceIdeal.S600000x1 ![0] Cert.ReferenceIdeal.Gen.bcast_S600000_S600000x1_0 dst)
      (mulf (Host.gather Cert.ReferenceIdeal.gather_S50000x128_S600000x1_S600000x128_1_0_n_n_0_1_1128 h
          (broadcastInDim Cert.ReferenceIdeal.S600000x1 ![0] Cert.ReferenceIdeal.Gen.bcast_S600000_S600000x1_0
            (select (cmpi .slt src (broadcastInDim Cert.ReferenceIdeal.S600000 ![] Cert.ReferenceIdeal.Gen.bcast_S_S600000 (constantI Cert.ReferenceIdeal.S_ 32 0#32)))
              (addi src (broadcastInDim Cert.ReferenceIdeal.S600000 ![] Cert.ReferenceIdeal.Gen.bcast_S_S600000 (constantI Cert.ReferenceIdeal.S_ 32 50000#32))) src)))
        (broadcastInDim Cert.ReferenceIdeal.S600000x128 ![0, 1] Cert.ReferenceIdeal.Gen.bcast_S600000x1_S600000x128_0_1
          (broadcastInDim Cert.ReferenceIdeal.S600000x1 ![0] Cert.ReferenceIdeal.Gen.bcast_S600000_S600000x1_0 ew)))
    = Cert.KernelIdeal.Fold.aggregate src dst ew h := rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two memories agree on the seventeen argument arrays. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

/-- The reference's first result is the kernel program's first head. -/
theorem ref_mu (hag : Agree m m' c) : Cert.ReferenceIdeal.Value.res_main_v64 m' c = Cert.KernelIdeal.Fold.mu m c := by
  obtain ⟨g0, g1, g2, g3, g4, g5, g6, g7, g8, g9, g10, g11, g12, g13, g14, g15, g16⟩ := hag
  unfold Cert.ReferenceIdeal.Value.res_main_v64
  rw [g0, g1, g2, g3, g4, g5, g6, g7, g8, g9, g10, g11, g12, g13, g14]
  rw [dense1, dense2, agg, gconv, agg, gconv, lin]
  unfold Cert.KernelIdeal.Fold.mu Cert.KernelIdeal.Heads.headOf Cert.KernelIdeal.Fold.a2 Cert.KernelIdeal.Fold.h1 Cert.KernelIdeal.GraphConv.gconv Cert.KernelIdeal.Fold.a1 Cert.KernelIdeal.Fold.h0 Cert.KernelIdeal.Perceptron.mlp Cert.KernelIdeal.Fold.feats Cert.KernelIdeal.Fold.edgeW Cert.KernelIdeal.Fold.src Cert.KernelIdeal.Fold.dst Cert.KernelIdeal.Fold.w1 Cert.KernelIdeal.Fold.w2 Cert.KernelIdeal.Fold.r1 Cert.KernelIdeal.Fold.q1 Cert.KernelIdeal.Fold.r2 Cert.KernelIdeal.Fold.q2 Cert.KernelIdeal.Fold.wmu Cert.KernelIdeal.Fold.b1 Cert.KernelIdeal.Fold.b2 Cert.KernelIdeal.Fold.c1 Cert.KernelIdeal.Fold.c2 Cert.KernelIdeal.Fold.bmu
  rfl

/-- The reference's second result is the kernel program's second head. -/
theorem ref_logvar (hag : Agree m m' c) : Cert.ReferenceIdeal.Value.res_main_v69 m' c = Cert.KernelIdeal.Fold.logvar m c := by
  obtain ⟨g0, g1, g2, g3, g4, g5, g6, g7, g8, g9, g10, g11, g12, g13, g14, g15, g16⟩ := hag
  unfold Cert.ReferenceIdeal.Value.res_main_v69
  rw [g0, g1, g2, g3, g4, g5, g6, g7, g8, g9, g10, g11, g12, g15, g16]
  rw [dense1, dense2, agg, gconv, agg, gconv, lin]
  unfold Cert.KernelIdeal.Fold.logvar Cert.KernelIdeal.Heads.headOf Cert.KernelIdeal.Fold.a2 Cert.KernelIdeal.Fold.h1 Cert.KernelIdeal.GraphConv.gconv Cert.KernelIdeal.Fold.a1 Cert.KernelIdeal.Fold.h0 Cert.KernelIdeal.Perceptron.mlp Cert.KernelIdeal.Fold.feats Cert.KernelIdeal.Fold.edgeW Cert.KernelIdeal.Fold.src Cert.KernelIdeal.Fold.dst Cert.KernelIdeal.Fold.w1 Cert.KernelIdeal.Fold.w2 Cert.KernelIdeal.Fold.r1 Cert.KernelIdeal.Fold.q1 Cert.KernelIdeal.Fold.r2 Cert.KernelIdeal.Fold.q2 Cert.KernelIdeal.Fold.wlv Cert.KernelIdeal.Fold.b1 Cert.KernelIdeal.Fold.b2 Cert.KernelIdeal.Fold.c1 Cert.KernelIdeal.Fold.c2 Cert.KernelIdeal.Fold.blv
  rfl

end

end Cert.Proof.Bridge

end
-- ==== Proof.lean ====
/-
  A graph encoder in three kernel launches against its plain reference, equal at the ideal instance.

  Both programs compute, for 50000 nodes and 600000 weighted edges: a two-layer perceptron of the node features
  (each layer max (X·Wᵀ + b, 0)); then twice a round of message passing — the rows of the current features gathered at
  the edges' sources, scaled by the edge weights and added up at the edges' destinations — followed by a
  graph-convolution layer max ((A·Rᵀ + b) + H·Qᵀ, 0) of the aggregated messages A and the features H; and at the end
  two linear heads H·Wᵀ + b of the last layer. The kernel program does the dense layers in three launches that walk
  blocks of rows and leaves the message passing to the host between them; the reference does everything on the host.

  On the extended reals a change of float format is the identity, a product accumulated into zeros and the host's
  dot_general are the same sum over the contracted index, a bias re-shaped into a row and a bias broadcast into a row
  are the same row, and every entry of a layer depends on one row of its inputs, so a block of rows of a layer's result
  is the layer of that block: each launch leaves in its result array the layer function of the whole arrays it found.
  The message passing is, operation for operation, the same term in both programs. Every addition is made in the same
  order on both sides, so the equality needs no finiteness and the precondition is never opened. The idealization
  rewrote nothing, so the kernel program read at the ideal instance is its own idealization.
-/
import proofs.«115264_j47579647705647_2_alg».proof.Defs
import proofs.«115264_j47579647705647_2_alg».proof.Proof.Gen.Kernel
import proofs.«115264_j47579647705647_2_alg».proof.Proof.Gen.Kernel.Frame
import proofs.«115264_j47579647705647_2_alg».proof.Proof.Gen.KernelIdeal
import proofs.«115264_j47579647705647_2_alg».proof.Proof.Gen.KernelIdeal.Frame
import proofs.«115264_j47579647705647_2_alg».proof.Proof.Gen.ReferenceIdeal
import proofs.«115264_j47579647705647_2_alg».proof.Proof.Gen.ReferenceIdeal.Run
import proofs.«115264_j47579647705647_2_alg».proof.Proof.Gen.Pre_finite_inputs
import proofs.«115264_j47579647705647_2_alg».proof.Proof.KernelRun
import proofs.«115264_j47579647705647_2_alg».proof.Proof.Fold
import proofs.«115264_j47579647705647_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel [Cert.Kernel.Facts] [Cert.Pre_finite_inputs.Facts] : Cert.frame_Kernel :=
  fun m ρ _ => Cert.Kernel.Gen.frame m ρ

/-- So does the kernel program at the ideal instance. -/
theorem frame_kernel_ideal [Cert.KernelIdeal.Facts] [Cert.Pre_finite_inputs.Facts] : Cert.frame_KernelIdeal :=
  fun m ρ _ => Cert.KernelIdeal.Gen.frame m ρ

/-- The reference's run, with its two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both programs end with the two heads of the second graph-convolution layer of the same arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Fold.mu m c, fun c => Cert.KernelIdeal.Fold.logvar m c, ?_, ?_⟩
  · exact (θ_run Cert.KernelIdeal.defs _ _).mono (fun r h c =>
      ⟨(Cert.KernelIdeal.EndState.end_at m ρ h c Cert.KernelIdeal.main_v46_0 (by decide)).trans (Cert.KernelIdeal.Fold.end_mu m ρ c),
        (Cert.KernelIdeal.EndState.end_at m ρ h c Cert.KernelIdeal.main_v46_1 (by decide)).trans (Cert.KernelIdeal.Fold.end_logvar m ρ c),
        (Cert.KernelIdeal.EndState.end_at m ρ h c Cert.KernelIdeal.main_arg0 (by decide)).trans (Cert.KernelIdeal.Gen.W6_main_arg0 m ρ c),
        (Cert.KernelIdeal.EndState.end_at m ρ h c Cert.KernelIdeal.main_arg1 (by decide)).trans (Cert.KernelIdeal.Gen.W6_main_arg1 m ρ c),
        (Cert.KernelIdeal.EndState.end_at m ρ h c Cert.KernelIdeal.main_arg2 (by decide)).trans (Cert.KernelIdeal.Gen.W6_main_arg2 m ρ c),
        (Cert.KernelIdeal.EndState.end_at m ρ h c Cert.KernelIdeal.main_arg3 (by decide)).trans (Cert.KernelIdeal.Gen.W6_main_arg3 m ρ c),
        (Cert.KernelIdeal.EndState.end_at m ρ h c Cert.KernelIdeal.main_arg4 (by decide)).trans (Cert.KernelIdeal.Gen.W6_main_arg4 m ρ c),
        (Cert.KernelIdeal.EndState.end_at m ρ h c Cert.KernelIdeal.main_arg5 (by decide)).trans (Cert.KernelIdeal.Gen.W6_main_arg5 m ρ c),
        (Cert.KernelIdeal.EndState.end_at m ρ h c Cert.KernelIdeal.main_arg6 (by decide)).trans (Cert.KernelIdeal.Gen.W6_main_arg6 m ρ c),
        (Cert.KernelIdeal.EndState.end_at m ρ h c Cert.KernelIdeal.main_arg7 (by decide)).trans (Cert.KernelIdeal.Gen.W6_main_arg7 m ρ c),
        (Cert.KernelIdeal.EndState.end_at m ρ h c Cert.KernelIdeal.main_arg8 (by decide)).trans (Cert.KernelIdeal.Gen.W6_main_arg8 m ρ c),
        (Cert.KernelIdeal.EndState.end_at m ρ h c Cert.KernelIdeal.main_arg9 (by decide)).trans (Cert.KernelIdeal.Gen.W6_main_arg9 m ρ c),
        (Cert.KernelIdeal.EndState.end_at m ρ h c Cert.KernelIdeal.main_arg10 (by decide)).trans (Cert.KernelIdeal.Gen.W6_main_arg10 m ρ c),
        (Cert.KernelIdeal.EndState.end_at m ρ h c Cert.KernelIdeal.main_arg11 (by decide)).trans (Cert.KernelIdeal.Gen.W6_main_arg11 m ρ c),
        (Cert.KernelIdeal.EndState.end_at m ρ h c Cert.KernelIdeal.main_arg12 (by decide)).trans (Cert.KernelIdeal.Gen.W6_main_arg12 m ρ c),
        (Cert.KernelIdeal.EndState.end_at m ρ h c Cert.KernelIdeal.main_arg13 (by decide)).trans (Cert.KernelIdeal.Gen.W6_main_arg13 m ρ c),
        (Cert.KernelIdeal.EndState.end_at m ρ h c Cert.KernelIdeal.main_arg14 (by decide)).trans (Cert.KernelIdeal.Gen.W6_main_arg14 m ρ c),
        (Cert.KernelIdeal.EndState.end_at m ρ h c Cert.KernelIdeal.main_arg15 (by decide)).trans (Cert.KernelIdeal.Gen.W6_main_arg15 m ρ c),
        (Cert.KernelIdeal.EndState.end_at m ρ h c Cert.KernelIdeal.main_arg16 (by decide)).trans (Cert.KernelIdeal.Gen.W6_main_arg16 m ρ c)⟩)
      (Cert.KernelIdeal.EndState.run_end (F := Ideal) m ρ)
  · exact (θ_run Cert.ReferenceIdeal.defs _ _).mono (fun r h c =>
      ⟨(h c).1.trans (Cert.Proof.Bridge.ref_mu m m' c (hagree c)),
        (h c).2.1.trans (Cert.Proof.Bridge.ref_logvar m m' c (hagree c)), (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
